-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000 : Shape := ⟨1, ![3200000]⟩
abbrev S100000 : Shape := ⟨1, ![100000]⟩
abbrev S1x64 : Shape := ⟨2, ![1, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512x10 : Shape := ⟨2, ![512, 10]⟩
abbrev S10 : Shape := ⟨1, ![10]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S512 .f32) (main_arg15 : FVec F S512x10 .f32) (main_arg16 : FVec F S10 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x10 .f32 := Host.absf main_arg15
  let main_cst_22 : FVec F S_ .f32 := constant S_ .f32 0x7F800000#32
  let main_v60 : FVec F S512x10 .f32 := broadcastInDim S512x10 ![] bcast_S_S512x10 main_cst_22
  let main_v61 : IVec S512x10 1 := cmpf .olt main_v59 main_v60
  let main_c_23 : IVec S_ 1 := constantI S_ 1 1#1
  let main_v62 : IVec S_ 1 := (fun x v => Host.reduce IntOp.andi x v reducesTo_S512x10_S_d0_1 h_S_) main_v61 main_c_23
  let main_v63 : IVec S_ 1 := andi main_v58 main_v62
  let main_v64 : FVec F S10 .f32 := Host.absf main_arg16
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg10 : FVec F S1024 .f32) (main_arg11 : FVec F S1024x1024 .f32) (main_arg12 : FVec F S1024 .f32) (main_arg13 : FVec F S1024x512 .f32) (main_arg14 : FVec F S512 .f32) (main_arg15 : FVec F S512x10 .f32) (main_arg16 : FVec F S10 .f32) (main_v33 : IVec S_ 1) : IVec S_ 1 :=
  let main_v34 : FVec F S1024 .f32 := Host.absf main_arg10
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg11
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg12
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x512 .f32 := Host.absf main_arg13
  let main_cst_18 : FVec F S_ .f32 := constant S_ .f32 0x7F800000#32
  let main_v50 : FVec F S1024x512 .f32 := broadcastInDim S1024x512 ![] bcast_S_S1024x512 main_cst_18
  fn_part3 (F := F) main_arg14 main_arg15 main_arg16 main_v48 main_v49 main_v50

def fn_part1 {F : FTy → Type} [FloatOps F] (main_arg7 : FVec F S64x512 .f32) (main_arg8 : FVec F S512 .f32) (main_arg9 : FVec F S512x1024 .f32) (main_arg10 : FVec F S1024 .f32) (main_arg11 : FVec F S1024x1024 .f32) (main_arg12 : FVec F S1024 .f32) (main_arg13 : FVec F S1024x512 .f32) (main_arg14 : FVec F S512 .f32) (main_arg15 : FVec F S512x10 .f32) (main_arg16 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x512 .f32 := Host.absf main_arg7
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg9
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : IVec S3200000 32) (main_arg1 : IVec S3200000 32) (main_arg2 : IVec S100000 32) (main_arg3 : FVec F S1x64 .f32) (main_arg4 : FVec F S64 .f32) (main_arg5 : FVec F S64x64 .f32) (main_arg6 : FVec F S64 .f32) (main_arg7 : FVec F S64x512 .f32) (main_arg8 : FVec F S512 .f32) (main_arg9 : FVec F S512x1024 .f32) (main_arg10 : FVec F S1024 .f32) (main_arg11 : FVec F S1024x1024 .f32) (main_arg12 : FVec F S1024 .f32) (main_arg13 : FVec F S1024x512 .f32) (main_arg14 : FVec F S512 .f32) (main_arg15 : FVec F S512x10 .f32) (main_arg16 : FVec F S10 .f32) : IVec S_ 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S64 .f32 := Host.absf main_arg4
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_v13 main_v16
-- ==== Kernel.lean ====
abbrev S3200000 : Shape := ⟨1, ![3200000]⟩
abbrev S100000 : Shape := ⟨1, ![100000]⟩
abbrev S1x64 : Shape := ⟨2, ![1, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512x10 : Shape := ⟨2, ![512, 10]⟩
abbrev S10 : Shape := ⟨1, ![10]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S10000x1 : Shape := ⟨2, ![10000, 1]⟩
abbrev S10000x64 : Shape := ⟨2, ![10000, 64]⟩
abbrev S3200000x64 : Shape := ⟨2, ![3200000, 64]⟩
abbrev S64x1 : Shape := ⟨2, ![64, 1]⟩
abbrev S1x512 : Shape := ⟨2, ![1, 512]⟩
abbrev S1x1024 : Shape := ⟨2, ![1, 1024]⟩
abbrev S1x10 : Shape := ⟨2, ![1, 10]⟩
abbrev S64x10 : Shape := ⟨2, ![64, 10]⟩
abbrev S64x1024 : Shape := ⟨2, ![64, 1024]⟩

abbrev nBuf : Space → Nat
  | .hbm => 95
  | .vmem => 28
  | .smem => 0
  | _ => 0

abbrev bufTy : (tb : Table) → Fin (tcTables nBuf tb) → BufTy
  | .hbm, ⟨0, _⟩ => ⟨S3200000, .i32⟩
  | .hbm, ⟨1, _⟩ => ⟨S3200000, .i32⟩
  | .hbm, ⟨2, _⟩ => ⟨S100000, .i32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x512, .f32⟩
  | .hbm, ⟨8, _⟩ => ⟨S512, .f32⟩
  | .hbm, ⟨9, _⟩ => ⟨S512x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x512, .f32⟩
  | .hbm, ⟨14, _⟩ => ⟨S512, .f32⟩
  | .hbm, ⟨15, _⟩ => ⟨S512x10, .f32⟩
  | .hbm, ⟨16, _⟩ => ⟨S10, .f32⟩
  | .hbm, ⟨17, _⟩ => ⟨S_, .f32⟩
  | .hbm, ⟨18, _⟩ => ⟨S3200000, .f32⟩
  | .hbm, ⟨19, _⟩ => ⟨S_, .f32⟩
  | .hbm, ⟨20, _⟩ => ⟨S100000, .f32⟩
  | .hbm, ⟨21, _⟩ => ⟨S3200000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x1, .f32⟩
  | .hbm, ⟨37, _⟩ => ⟨S100000x1, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000x1, .f32⟩
  | .hbm, ⟨47, _⟩ => ⟨S_, .f32⟩
  | .hbm, ⟨48, _⟩ => ⟨S100000x1, .f32⟩
  | .hbm, ⟨49, _⟩ => ⟨S3200000x1, .i32⟩
  | .hbm, ⟨50, _⟩ => ⟨S100000x1, .f32⟩
  | .hbm, ⟨51, _⟩ => ⟨S1x64, .f32⟩
  | .hbm, ⟨52, _⟩ => ⟨S100000x1, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x64, .f32⟩
  | .hbm, ⟨66, _⟩ => ⟨S_, .f32⟩
  | .hbm, ⟨67, _⟩ => ⟨S100000x64, .f32⟩
  | .hbm, ⟨68, _⟩ => ⟨S3200000x1, .i32⟩
  | .hbm, ⟨69, _⟩ => ⟨S100000x64, .f32⟩
  | .hbm, ⟨70, _⟩ => ⟨S1x64, .f32⟩
  | .hbm, ⟨71, _⟩ => ⟨S100000x1, .f32⟩
  | .hbm, ⟨72, _⟩ => ⟨S100000x64, .f32⟩
  | .hbm, ⟨73, _⟩ => ⟨S_, .f32⟩
  | .hbm, ⟨74, _⟩ => ⟨S100000, .f32⟩
  | .hbm, ⟨75, _⟩ => ⟨S_, .f32⟩
  | .hbm, ⟨76, _⟩ => ⟨S64, .f32⟩
  | .hbm, ⟨77, _⟩ => ⟨S100000x1, .i32⟩
  | .hbm, ⟨78, _⟩ => ⟨S64, .f32⟩
  | .hbm, ⟨79, _⟩ => ⟨S_, .f32⟩
  | .hbm, ⟨80, _⟩ => ⟨S64x64, .f32⟩
  | .hbm, ⟨81, _⟩ => ⟨S100000x1, .i32⟩
  | .hbm, ⟨82, _⟩ => ⟨S64x64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64x1, .f32⟩
  | .hbm, ⟨87, _⟩ => ⟨S64x64, .f32⟩
  | .hbm, ⟨88, _⟩ => ⟨S64x64, .f32⟩
  | .hbm, ⟨89, _⟩ => ⟨S1x512, .f32⟩
  | .hbm, ⟨90, _⟩ => ⟨S1x1024, .f32⟩
  | .hbm, ⟨91, _⟩ => ⟨S1x1024, .f32⟩
  | .hbm, ⟨92, _⟩ => ⟨S1x512, .f32⟩
  | .hbm, ⟨93, _⟩ => ⟨S1x10, .f32⟩
  | .hbm, ⟨94, _⟩ => ⟨S64x10, .f32⟩
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S1x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x1, .f32⟩
  | .local _ .vmem, ⟨11, _⟩ => ⟨S10000x1, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S64x512, .f32⟩
  | .local _ .vmem, ⟨18, _⟩ => ⟨S1x512, .f32⟩
  | .local _ .vmem, ⟨19, _⟩ => ⟨S512x1024, .f32⟩
  | .local _ .vmem, ⟨20, _⟩ => ⟨S1x1024, .f32⟩
  | .local _ .vmem, ⟨21, _⟩ => ⟨S1024x1024, .f32⟩
  | .local _ .vmem, ⟨22, _⟩ => ⟨S1x1024, .f32⟩
  | .local _ .vmem, ⟨23, _⟩ => ⟨S1024x512, .f32⟩
  | .local _ .vmem, ⟨24, _⟩ => ⟨S1x512, .f32⟩
  | .local _ .vmem, ⟨25, _⟩ => ⟨S512x10, .f32⟩
  | .local _ .vmem, ⟨26, _⟩ => ⟨S1x10, .f32⟩
  | .local _ .vmem, ⟨27, _⟩ => ⟨S64x10, .f32⟩
  | _, _ => ⟨S3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg11_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem11_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x10 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x10 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x10 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  shapeCasts_S64_S1x64 : S64.ShapeCasts S1x64
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x64_S1x64_0_0 : ∀ a, (![0, 0] : Fin 2 → Nat) a + S1x64.size a ≤ S1x64.size a
  h_S1x64 : 0 < S1x64.numel
  bitsLt_bf16_f32 : FTy.bits .bf16 < FTy.bits .f32
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S10000x64_S10000x64 : S10000x64.ShapeCasts S10000x64
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S512_S1x512 : S512.ShapeCasts S1x512
  shapeCasts_S1024_S1x1024 : S1024.ShapeCasts S1x1024
  shapeCasts_S10_S1x10 : S10.ShapeCasts S1x10
  shapeCasts_S64x64_S64x64 : S64x64.ShapeCasts S64x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  inb_S512x10_S512x10_0_0 : ∀ a, (![0, 0] : Fin 2 → Nat) a + S512x10.size a ≤ S512x10.size a
  h_S512x10 : 0 < S512x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  scatter_S100000_S3200000x1_S3200000_n_0_0_1_wf : ScatterDims.WF S100000 S3200000x1 S3200000 [] [0] [0] 1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S10000x1_S1x64_S10000x64_1_0_0_1_n_n_wf : DotDims.WF S10000x1 S1x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x512_S64x512_1_0_0_1_n_n_wf : DotDims.WF S64x64 S64x512 S64x512 [1] [0] [0] [1] [] []
  dot_S64x512_S512x1024_S64x1024_1_0_0_1_n_n_wf : DotDims.WF S64x512 S512x1024 S64x1024 [1] [0] [0] [1] [] []
  dot_S64x1024_S1024x1024_S64x1024_1_0_0_1_n_n_wf : DotDims.WF S64x1024 S1024x1024 S64x1024 [1] [0] [0] [1] [] []
  dot_S64x1024_S1024x512_S64x512_1_0_0_1_n_n_wf : DotDims.WF S64x1024 S1024x512 S64x512 [1] [0] [0] [1] [] []
  dot_S64x512_S512x10_S64x10_1_0_0_1_n_n_wf : DotDims.WF S64x512 S512x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x64.size a ≤ S64x64.size a
  hwx2_0 : ∀ i : grid2.Coords, EltTy.bits .f32 = 32 ∨ (Rect.block (s := S64x64) S64x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x512.size a ≤ S64x512.size a
  hwx2_1 : ∀ i : grid2.Coords, EltTy.bits .f32 = 32 ∨ (Rect.block (s := S64x512) S64x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S512x1024.size a
  hwx2_3 : ∀ i : grid2.Coords, EltTy.bits .f32 = 32 ∨ (Rect.block (s := S512x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S1024x1024.size a
  hwx2_5 : ∀ i : grid2.Coords, EltTy.bits .f32 = 32 ∨ (Rect.block (s := S1024x1024) S1024x1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1024.size a ≤ S1x1024.size a
  hwx2_6 : ∀ i : grid2.Coords, EltTy.bits .f32 = 32 ∨ (Rect.block (s := S1x1024) S1x1024.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S1024x512.size a
  hwx2_7 : ∀ i : grid2.Coords, EltTy.bits .f32 = 32 ∨ (Rect.block (s := S1024x512) S1024x512.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x512.size a ≤ S1x512.size a
  hwx2_8 : ∀ i : grid2.Coords, EltTy.bits .f32 = 32 ∨ (Rect.block (s := S1x512) S1x512.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x10.size a ≤ S512x10.size a
  hwx2_9 : ∀ i : grid2.Coords, EltTy.bits .f32 = 32 ∨ (Rect.block (s := S512x10) S512x10.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x10.size a ≤ S1x10.size a
  hwx2_10 : ∀ i : grid2.Coords, EltTy.bits .f32 = 32 ∨ (Rect.block (s := S1x10) S1x10.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x10.size a ≤ S64x10.size a
  hwx2_11 : ∀ i : grid2.Coords, EltTy.bits .f32 = 32 ∨ (Rect.block (s := S64x10) S64x10.size (cc2_transform_11 i) (hinb2_11 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

abbrev win0_0 : Pipeline.Window sig grid0 :=
  Pipeline.Window.ofSpec (Memref.whole main_v25) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S64x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S512x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S1024x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S1024x512.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S1x512.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg15) S512x10.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v61) S1x10.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v62) S64x10.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S3200000 : Shape := ⟨1, ![3200000]⟩
abbrev S100000 : Shape := ⟨1, ![100000]⟩
abbrev S1x64 : Shape := ⟨2, ![1, 64]⟩
abbrev S64 : Shape := ⟨1, ![64]⟩
abbrev S64x64 : Shape := ⟨2, ![64, 64]⟩
abbrev S64x512 : Shape := ⟨2, ![64, 512]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512x10 : Shape := ⟨2, ![512, 10]⟩
abbrev S10 : Shape := ⟨1, ![10]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S3200000x64 : Shape := ⟨2, ![3200000, 64]⟩
abbrev S64x1 : Shape := ⟨2, ![64, 1]⟩
abbrev S1x512 : Shape := ⟨2, ![1, 512]⟩
abbrev S64x1024 : Shape := ⟨2, ![64, 1024]⟩
abbrev S1x1024 : Shape := ⟨2, ![1, 1024]⟩
abbrev S64x10 : Shape := ⟨2, ![64, 10]⟩
abbrev S1x10 : Shape := ⟨2, ![1, 10]⟩

abbrev nBuf : Space → Nat
  | .hbm => 145
  | .vmem => 0
  | .smem => 0
  | _ => 0

abbrev hbmTy0_0 (i : Nat) : BufTy := match i % 128 with
  | 0 => ⟨S3200000, .i32⟩
  | 1 => ⟨S3200000, .i32⟩
  | 2 => ⟨S100000, .i32⟩
  | 3 => ⟨S1x64, .f32⟩
  | 4 => ⟨S64, .f32⟩
  | 5 => ⟨S64x64, .f32⟩
  | 6 => ⟨S64, .f32⟩
  | 7 => ⟨S64x512, .f32⟩
  | 8 => ⟨S512, .f32⟩
  | 9 => ⟨S512x1024, .f32⟩
  | 10 => ⟨S1024, .f32⟩
  | 11 => ⟨S1024x1024, .f32⟩
  | 12 => ⟨S1024, .f32⟩
  | 13 => ⟨S1024x512, .f32⟩
  | 14 => ⟨S512, .f32⟩
  | 15 => ⟨S512x10, .f32⟩
  | 16 => ⟨S10, .f32⟩
  | 17 => ⟨S_, .f32⟩
  | 18 => ⟨S3200000, .f32⟩
  | 19 => ⟨S_, .f32⟩
  | 20 => ⟨S100000, .f32⟩
  | 21 => ⟨S3200000x1, .i32⟩
  | 22 => ⟨S100000, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S100000x1, .f32⟩
  | 37 => ⟨S100000x1, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000x1, .f32⟩
  | 47 => ⟨S_, .f32⟩
  | 48 => ⟨S100000x1, .f32⟩
  | 49 => ⟨S3200000x1, .i32⟩
  | 50 => ⟨S100000x1, .f32⟩
  | 51 => ⟨S100000x1, .f32⟩
  | 52 => ⟨S100000x1, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S100000x1, .f32⟩
  | 61 => ⟨S100000x64, .f32⟩
  | 62 => ⟨S100000x64, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000x64, .f32⟩
  | 72 => ⟨S_, .f32⟩
  | 73 => ⟨S100000x64, .f32⟩
  | 74 => ⟨S3200000x1, .i32⟩
  | 75 => ⟨S100000x64, .f32⟩
  | 76 => ⟨S100000x1, .f32⟩
  | 77 => ⟨S100000x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S_, .f32⟩
  | 84 => ⟨S100000, .f32⟩
  | 85 => ⟨S_, .f32⟩
  | 86 => ⟨S64, .f32⟩
  | 87 => ⟨S100000x1, .i32⟩
  | 88 => ⟨S64, .f32⟩
  | 89 => ⟨S_, .f32⟩
  | 90 => ⟨S64x64, .f32⟩
  | 91 => ⟨S100000x1, .i32⟩
  | 92 => ⟨S64x64, .f32⟩
  | 93 => ⟨S_, .f32⟩
  | 94 => ⟨S64, .f32⟩
  | 95 => ⟨S64, .f32⟩
  | 96 => ⟨S64x1, .f32⟩
  | 97 => ⟨S64x64, .f32⟩
  | 98 => ⟨S64x64, .f32⟩
  | 99 => ⟨S64x512, .f32⟩
  | 100 => ⟨S1x512, .f32⟩
  | 101 => ⟨S64x512, .f32⟩
  | 102 => ⟨S64x512, .f32⟩
  | 103 => ⟨S_, .f32⟩
  | 104 => ⟨S64x512, .f32⟩
  | 105 => ⟨S64x512, .f32⟩
  | 106 => ⟨S64x1024, .f32⟩
  | 107 => ⟨S1x1024, .f32⟩
  | 108 => ⟨S64x1024, .f32⟩
  | 109 => ⟨S64x1024, .f32⟩
  | 110 => ⟨S_, .f32⟩
  | 111 => ⟨S64x1024, .f32⟩
  | 112 => ⟨S64x1024, .f32⟩
  | 113 => ⟨S64x1024, .f32⟩
  | 114 => ⟨S1x1024, .f32⟩
  | 115 => ⟨S64x1024, .f32⟩
  | 116 => ⟨S64x1024, .f32⟩
  | 117 => ⟨S_, .f32⟩
  | 118 => ⟨S64x1024, .f32⟩
  | 119 => ⟨S64x1024, .f32⟩
  | 120 => ⟨S64x512, .f32⟩
  | 121 => ⟨S1x512, .f32⟩
  | 122 => ⟨S64x512, .f32⟩
  | 123 => ⟨S64x512, .f32⟩
  | 124 => ⟨S_, .f32⟩
  | 125 => ⟨S64x512, .f32⟩
  | 126 => ⟨S64x512, .f32⟩
  | 127 => ⟨S64x10, .f32⟩
  | _ => ⟨S3200000, .i32⟩

abbrev hbmTy0_1 (i : Nat) : BufTy := match i % 128 with
  | 0 => ⟨S1x10, .f32⟩
  | 1 => ⟨S64x10, .f32⟩
  | 2 => ⟨S64x10, .f32⟩
  | 3 => ⟨S_, .f32⟩
  | 4 => ⟨S64, .f32⟩
  | 5 => ⟨S_, .f32⟩
  | 6 => ⟨S64, .f32⟩
  | 7 => ⟨S64, .f32⟩
  | 8 => ⟨S64x1, .f32⟩
  | 9 => ⟨S64x10, .f32⟩
  | 10 => ⟨S64x10, .f32⟩
  | 11 => ⟨S64x10, .f32⟩
  | 12 => ⟨S_, .f32⟩
  | 13 => ⟨S64, .f32⟩
  | 14 => ⟨S64x1, .f32⟩
  | 15 => ⟨S64x10, .f32⟩
  | 16 => ⟨S64x10, .f32⟩
  | _ => ⟨S3200000, .i32⟩

abbrev hbmTy (i : Nat) : BufTy := match i / 128 with
  | 0 => hbmTy0_0 i
  | 1 => hbmTy0_1 i
  | _ => ⟨S3200000, .i32⟩

abbrev bufTy : (tb : Table) → Fin (tcTables nBuf tb) → BufTy
  | .hbm, ⟨i, _⟩ => hbmTy i
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call0_cst : Ref sig .tc := ⟨.hbm, 57, rfl⟩
abbrev main_call0_v0 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_call1_cst : Ref sig .tc := ⟨.hbm, 103, rfl⟩
abbrev main_call1_v0 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call2_cst : Ref sig .tc := ⟨.hbm, 110, rfl⟩
abbrev main_call2_v0 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call3_cst : Ref sig .tc := ⟨.hbm, 117, rfl⟩
abbrev main_call3_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_call4_cst : Ref sig .tc := ⟨.hbm, 124, rfl⟩
abbrev main_call4_v0 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_13 : Ref sig .tc := ⟨.hbm, 131, rfl⟩
abbrev main_v89 : Ref sig .tc := ⟨.hbm, 132, rfl⟩
abbrev main_cst_14 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_15 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S100000_S3200000x1_S3200000_n_0_0_1_wf : ScatterDims.WF S100000 S3200000x1 S3200000 [] [0] [0] 1
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x64_S100000x64_1_0_0_1_n_n_wf : DotDims.WF S100000x1 S1x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  scatter_S64_S100000x1_S100000_n_0_0_1_wf : ScatterDims.WF S64 S100000x1 S100000 [] [0] [0] 1
  scatter_S64x64_S100000x1_S100000x64_1_0_0_1_wf : ScatterDims.WF S64x64 S100000x1 S100000x64 [1] [0] [0] 1
  dot_S64x64_S64x512_S64x512_1_0_0_1_n_n_wf : DotDims.WF S64x64 S64x512 S64x512 [1] [0] [0] [1] [] []
  dot_S64x512_S512x1024_S64x1024_1_0_0_1_n_n_wf : DotDims.WF S64x512 S512x1024 S64x1024 [1] [0] [0] [1] [] []
  dot_S64x1024_S1024x1024_S64x1024_1_0_0_1_n_n_wf : DotDims.WF S64x1024 S1024x1024 S64x1024 [1] [0] [0] [1] [] []
  dot_S64x1024_S1024x512_S64x512_1_0_0_1_n_n_wf : DotDims.WF S64x1024 S1024x512 S64x512 [1] [0] [0] [1] [] []
  dot_S64x512_S512x10_S64x10_1_0_0_1_n_n_wf : DotDims.WF S64x512 S512x10 S64x10 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def dot_S64x64_S64x512_S64x512_1_0_0_1_n_n : DotDims S64x64 S64x512 S64x512 where
  lhsContracting := [1]
  rhsContracting := [0]
  lhsNonContracting := [0]
  rhsNonContracting := [1]
  lhsBatch := []
  rhsBatch := []
  wf := dot_S64x64_S64x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

class Facts : Prop extends Facts₀ where

variable [Facts]
-- ==== Proof.KernelRun.lean ====
/-
  The idealized kernel's run with its result named.

  @main is six segments: a stretch of host operations, the first dense layer's launch, a second stretch, the second
  dense layer's launch, a third stretch, and the classifier's launch.  The buffer contents at each boundary are a
  fold from the launch memory: a stretch applies its operations, a launch leaves each of its arrays at what its
  write-backs give and every other buffer as it found it.  Every weakly fair execution ends with EVERY unscoped
  buffer at the last boundary's contents; read at the result buffer this names the result, read at an argument it
  says the argument is as launched.
-/
import proofs.«170102_j71322226918055_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.RunValue

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.GraphNet.lean ====
/-
  The network both programs compute, as whole-array functions on extended reals.

  A graph-convolution layer scales every row of the aggregated messages by that node's entry of a one-column
  array, multiplies by the weight matrix and adds the bias row — the first layer then takes the maximum with zero.
  The classifier is four such "matrix, bias, maximum with zero" layers, a last "matrix, bias" layer, and the
  softmax of every row: the exponential of the row shifted by its maximum, over the sum of those exponentials.
  Every layer is row-wise, so it can be computed band of rows by band of rows.
-/
import Idealize.ShloMosaic.Lib.ValueIdx
import Idealize.ShloMosaic.PureOps.Ideal.Laws
import proofs.«170102_j71322226918055_2_alg».proof.Proof.LibRowWise

noncomputable section

open scoped BigOperators

namespace GraphNet

open Idealize.ShloMosaic Idealize.ShloMosaic.ValueIdx GcnSpec

/-- Add the one-row array to a row. -/
def biasRow {k : ℕ} (b : Arr 1 k) (z : Fin k → EReal) : Fin k → EReal := fun c => z c + b (ix2 (0 : Fin 1) c)

/-- Add the one-row array to every row. -/
def bias {n k : ℕ} (a : Arr n k) (b : Arr 1 k) : Arr n k := rowMap (biasRow b) a

/-- The softmax of a row: the exponential of the row shifted by its maximum, over the sum of those exponentials. -/
def softmaxRow {k : ℕ} (y : Fin k → EReal) : Fin k → EReal :=
  fun c => Ideal.div (Ideal.exp (shifted y c)) (∑ l : Fin k, Ideal.exp (shifted y l))

/-- The softmax of every row. -/
def softmax {n k : ℕ} (a : Arr n k) : Arr n k := rowMap softmaxRow a

/-- Every entry times the one-column array's entry in the same row. -/
def scaleRows {n k : ℕ} (a : Arr n k) (s : Arr n 1) : Arr n k :=
  fun i => a i * s (ix2 (⟨(i 0).val, idx2_lt0 i⟩ : Fin n) (0 : Fin 1))

theorem scaleRows_ix2 {n k : ℕ} (a : Arr n k) (s : Arr n 1) (r : Fin n) (l : Fin k) :
    scaleRows a s (ix2 r l) = a (ix2 r l) * s (ix2 r (0 : Fin 1)) := rfl

/-- The first graph-convolution layer: rows scaled, times the matrix, bias, maximum with zero. -/
def conv1 {n k q : ℕ} (a : Arr n k) (s : Arr n 1) (w : Arr k q) (b : Arr 1 q) : Arr n q :=
  relu (lin (scaleRows a s) w) b

/-- The second graph-convolution layer: rows scaled, times the matrix, bias. -/
def conv2 {n k q : ℕ} (a : Arr n k) (s : Arr n 1) (w : Arr k q) (b : Arr 1 q) : Arr n q :=
  bias (lin (scaleRows a s) w) b

/-- The classifier: four layers with the maximum with zero, one without, then the softmax of every row. -/
def mlp {g d0 d1 d2 d3 d4 d5 : ℕ} (x : Arr g d0) (w1 : Arr d0 d1) (b1 : Arr 1 d1) (w2 : Arr d1 d2) (b2 : Arr 1 d2)
    (w3 : Arr d2 d3) (b3 : Arr 1 d3) (w4 : Arr d3 d4) (b4 : Arr 1 d4) (w5 : Arr d4 d5) (b5 : Arr 1 d5) : Arr g d5 :=
  softmax (bias (lin (relu (lin (relu (lin (relu (lin (relu (lin x w1) b1) w2) b2) w3) b3) w4) b4) w5) b5)

/-- Entry (r, c) of a graph-convolution layer before the bias: the sum over l of the scaled entry times the weight. -/
theorem lin_scaleRows_ix2 {n k q : ℕ} (a : Arr n k) (s : Arr n 1) (w : Arr k q) (r : Fin n) (c : Fin q) :
    lin (scaleRows a s) w (ix2 r c) = ∑ l : Fin k, (a (ix2 r l) * s (ix2 r (0 : Fin 1))) * w (ix2 l c) := rfl

theorem conv1_ix2 {n k q : ℕ} (a : Arr n k) (s : Arr n 1) (w : Arr k q) (b : Arr 1 q) (r : Fin n) (c : Fin q) :
    conv1 a s w b (ix2 r c)
      = max ((∑ l : Fin k, (a (ix2 r l) * s (ix2 r (0 : Fin 1))) * w (ix2 l c)) + b (ix2 (0 : Fin 1) c)) zeroF := rfl

theorem conv2_ix2 {n k q : ℕ} (a : Arr n k) (s : Arr n 1) (w : Arr k q) (b : Arr 1 q) (r : Fin n) (c : Fin q) :
    conv2 a s w b (ix2 r c)
      = (∑ l : Fin k, (a (ix2 r l) * s (ix2 r (0 : Fin 1))) * w (ix2 l c)) + b (ix2 (0 : Fin 1) c) := rfl

end GraphNet

end
-- ==== Proof.ArgsKept.lean ====
/-
  The argument arrays, and the two degree norms, at every boundary of @main.

  No host operation writes an argument array and no launch writes one either (a launch writes only its result
  array), so at every boundary an argument buffer still holds what it held at launch.  The two degree norms are
  written once, in the first stretch, and read again by the later stretches: they too are unchanged in between.
-/
import proofs.«170102_j71322226918055_2_alg».proof.Proof.Gen.KernelIdeal.Frame
import Idealize.ShloMosaic.Lib.StableHlo.Run

set_option maxRecDepth 16384

noncomputable section

namespace Cert.KernelIdeal.Reads

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ### Argument 0 -/
theorem W1_arg0 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg0 : W2 m ρ c (Proc.devRef .tc main_arg0) = m ((c : Thread nD τ).loc main_arg0) :=
  (W2_of_ne m ρ c main_arg0 (by decide)).trans (W1_arg0 m ρ c)
theorem W3_arg0 : W3 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg0 m ρ c)
theorem W4_arg0 : W4 m ρ c (Proc.devRef .tc main_arg0) = m ((c : Thread nD τ).loc main_arg0) :=
  (W4_of_ne m ρ c main_arg0 (by decide)).trans (W3_arg0 m ρ c)
theorem W5_arg0 : W5 m ρ c (Proc.devRef .tc main_arg0) = m ((c : Thread nD τ).loc main_arg0) :=
  (StableHlo.after_of_forall_not_mem (b := Proc.devRef .tc main_arg0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg0 m ρ c)

/-! ### Argument 1 -/
theorem W1_arg1 : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg1 : W2 m ρ c (Proc.devRef .tc main_arg1) = m ((c : Thread nD τ).loc main_arg1) :=
  (W2_of_ne m ρ c main_arg1 (by decide)).trans (W1_arg1 m ρ c)
theorem W3_arg1 : W3 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg1 m ρ c)
theorem W4_arg1 : W4 m ρ c (Proc.devRef .tc main_arg1) = m ((c : Thread nD τ).loc main_arg1) :=
  (W4_of_ne m ρ c main_arg1 (by decide)).trans (W3_arg1 m ρ c)
theorem W5_arg1 : W5 m ρ c (Proc.devRef .tc main_arg1) = m ((c : Thread nD τ).loc main_arg1) :=
  (StableHlo.after_of_forall_not_mem (b := Proc.devRef .tc main_arg1) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg1 m ρ c)

/-! ### Argument 2 -/
theorem W1_arg2 : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg2 : W2 m ρ c (Proc.devRef .tc main_arg2) = m ((c : Thread nD τ).loc main_arg2) :=
  (W2_of_ne m ρ c main_arg2 (by decide)).trans (W1_arg2 m ρ c)
theorem W3_arg2 : W3 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg2 m ρ c)
theorem W4_arg2 : W4 m ρ c (Proc.devRef .tc main_arg2) = m ((c : Thread nD τ).loc main_arg2) :=
  (W4_of_ne m ρ c main_arg2 (by decide)).trans (W3_arg2 m ρ c)
theorem W5_arg2 : W5 m ρ c (Proc.devRef .tc main_arg2) = m ((c : Thread nD τ).loc main_arg2) :=
  (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg2 m ρ c)

/-! ### Argument 3 -/
theorem W1_arg3 : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg3 : W2 m ρ c (Proc.devRef .tc main_arg3) = m ((c : Thread nD τ).loc main_arg3) :=
  ((W2_arr m ρ c 2).trans (((dat0 (V1 m ρ) c).arrAt_in 2 rfl _).trans (A_eq0 (V1 m ρ) c 2))).trans (W1_arg3 m ρ c)
theorem W3_arg3 : W3 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg3 m ρ c)
theorem W4_arg3 : W4 m ρ c (Proc.devRef .tc main_arg3) = m ((c : Thread nD τ).loc main_arg3) :=
  (W4_of_ne m ρ c main_arg3 (by decide)).trans (W3_arg3 m ρ c)
theorem W5_arg3 : W5 m ρ c (Proc.devRef .tc main_arg3) = m ((c : Thread nD τ).loc main_arg3) :=
  (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg3 m ρ c)

/-! ### Argument 4 -/
theorem W1_arg4 : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg4 : W2 m ρ c (Proc.devRef .tc main_arg4) = m ((c : Thread nD τ).loc main_arg4) :=
  (W2_of_ne m ρ c main_arg4 (by decide)).trans (W1_arg4 m ρ c)
theorem W3_arg4 : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg4 m ρ c)
theorem W4_arg4 : W4 m ρ c (Proc.devRef .tc main_arg4) = m ((c : Thread nD τ).loc main_arg4) :=
  (W4_of_ne m ρ c main_arg4 (by decide)).trans (W3_arg4 m ρ c)
theorem W5_arg4 : W5 m ρ c (Proc.devRef .tc main_arg4) = m ((c : Thread nD τ).loc main_arg4) :=
  (StableHlo.after_of_forall_not_mem (b := Proc.devRef .tc main_arg4) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg4 m ρ c)

/-! ### Argument 5 -/
theorem W1_arg5 : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg5 : W2 m ρ c (Proc.devRef .tc main_arg5) = m ((c : Thread nD τ).loc main_arg5) :=
  (W2_of_ne m ρ c main_arg5 (by decide)).trans (W1_arg5 m ρ c)
theorem W3_arg5 : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)
theorem W4_arg5 : W4 m ρ c (Proc.devRef .tc main_arg5) = m ((c : Thread nD τ).loc main_arg5) :=
  ((W4_arr m ρ c 2).trans (((dat1 (V3 m ρ) c).arrAt_in 2 rfl _).trans (A_eq1 (V3 m ρ) c 2))).trans (W3_arg5 m ρ c)
theorem W5_arg5 : W5 m ρ c (Proc.devRef .tc main_arg5) = m ((c : Thread nD τ).loc main_arg5) :=
  (StableHlo.after_of_forall_not_mem (b := Proc.devRef .tc main_arg5) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg5 m ρ c)

/-! ### Argument 6 -/
theorem W1_arg6 : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg6 : W2 m ρ c (Proc.devRef .tc main_arg6) = m ((c : Thread nD τ).loc main_arg6) :=
  (W2_of_ne m ρ c main_arg6 (by decide)).trans (W1_arg6 m ρ c)
theorem W3_arg6 : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg6 m ρ c)
theorem W4_arg6 : W4 m ρ c (Proc.devRef .tc main_arg6) = m ((c : Thread nD τ).loc main_arg6) :=
  (W4_of_ne m ρ c main_arg6 (by decide)).trans (W3_arg6 m ρ c)
theorem W5_arg6 : W5 m ρ c (Proc.devRef .tc main_arg6) = m ((c : Thread nD τ).loc main_arg6) :=
  (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg6 m ρ c)

/-! ### Argument 7 -/
theorem W1_arg7 : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg7 : W2 m ρ c (Proc.devRef .tc main_arg7) = m ((c : Thread nD τ).loc main_arg7) :=
  (W2_of_ne m ρ c main_arg7 (by decide)).trans (W1_arg7 m ρ c)
theorem W3_arg7 : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)
theorem W4_arg7 : W4 m ρ c (Proc.devRef .tc main_arg7) = m ((c : Thread nD τ).loc main_arg7) :=
  (W4_of_ne m ρ c main_arg7 (by decide)).trans (W3_arg7 m ρ c)
theorem W5_arg7 : W5 m ρ c (Proc.devRef .tc main_arg7) = m ((c : Thread nD τ).loc main_arg7) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg7 m ρ c)

/-! ### Argument 8 -/
theorem W1_arg8 : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg8 : W2 m ρ c (Proc.devRef .tc main_arg8) = m ((c : Thread nD τ).loc main_arg8) :=
  (W2_of_ne m ρ c main_arg8 (by decide)).trans (W1_arg8 m ρ c)
theorem W3_arg8 : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg8 m ρ c)
theorem W4_arg8 : W4 m ρ c (Proc.devRef .tc main_arg8) = m ((c : Thread nD τ).loc main_arg8) :=
  (W4_of_ne m ρ c main_arg8 (by decide)).trans (W3_arg8 m ρ c)
theorem W5_arg8 : W5 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg8 m ρ c)

/-! ### Argument 9 -/
theorem W1_arg9 : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg9 : W2 m ρ c (Proc.devRef .tc main_arg9) = m ((c : Thread nD τ).loc main_arg9) :=
  (W2_of_ne m ρ c main_arg9 (by decide)).trans (W1_arg9 m ρ c)
theorem W3_arg9 : W3 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg9 m ρ c)
theorem W4_arg9 : W4 m ρ c (Proc.devRef .tc main_arg9) = m ((c : Thread nD τ).loc main_arg9) :=
  (W4_of_ne m ρ c main_arg9 (by decide)).trans (W3_arg9 m ρ c)
theorem W5_arg9 : W5 m ρ c (Proc.devRef .tc main_arg9) = m ((c : Thread nD τ).loc main_arg9) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg9 m ρ c)

/-! ### Argument 10 -/
theorem W1_arg10 : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg10 : W2 m ρ c (Proc.devRef .tc main_arg10) = m ((c : Thread nD τ).loc main_arg10) :=
  (W2_of_ne m ρ c main_arg10 (by decide)).trans (W1_arg10 m ρ c)
theorem W3_arg10 : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg10 m ρ c)
theorem W4_arg10 : W4 m ρ c (Proc.devRef .tc main_arg10) = m ((c : Thread nD τ).loc main_arg10) :=
  (W4_of_ne m ρ c main_arg10 (by decide)).trans (W3_arg10 m ρ c)
theorem W5_arg10 : W5 m ρ c (Proc.devRef .tc main_arg10) = m ((c : Thread nD τ).loc main_arg10) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg10 m ρ c)

/-! ### Argument 11 -/
theorem W1_arg11 : W1 m ρ c (Proc.devRef .tc main_arg11) = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg11 : W2 m ρ c (Proc.devRef .tc main_arg11) = m ((c : Thread nD τ).loc main_arg11) :=
  (W2_of_ne m ρ c main_arg11 (by decide)).trans (W1_arg11 m ρ c)
theorem W3_arg11 : W3 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg11 m ρ c)
theorem W4_arg11 : W4 m ρ c (Proc.devRef .tc main_arg11) = m ((c : Thread nD τ).loc main_arg11) :=
  (W4_of_ne m ρ c main_arg11 (by decide)).trans (W3_arg11 m ρ c)
theorem W5_arg11 : W5 m ρ c (Proc.devRef .tc main_arg11) = m ((c : Thread nD τ).loc main_arg11) :=
  (StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg11 m ρ c)

/-! ### Argument 12 -/
theorem W1_arg12 : W1 m ρ c (Proc.devRef .tc main_arg12) = m ((c : Thread nD τ).loc main_arg12) :=
  (StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg12 : W2 m ρ c (Proc.devRef .tc main_arg12) = m ((c : Thread nD τ).loc main_arg12) :=
  (W2_of_ne m ρ c main_arg12 (by decide)).trans (W1_arg12 m ρ c)
theorem W3_arg12 : W3 m ρ c (Proc.devRef .tc main_arg12) = m ((c : Thread nD τ).loc main_arg12) :=
  (StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg12 m ρ c)
theorem W4_arg12 : W4 m ρ c (Proc.devRef .tc main_arg12) = m ((c : Thread nD τ).loc main_arg12) :=
  (W4_of_ne m ρ c main_arg12 (by decide)).trans (W3_arg12 m ρ c)
theorem W5_arg12 : W5 m ρ c (Proc.devRef .tc main_arg12) = m ((c : Thread nD τ).loc main_arg12) :=
  (StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg12 m ρ c)

/-! ### Argument 13 -/
theorem W1_arg13 : W1 m ρ c (Proc.devRef .tc main_arg13) = m ((c : Thread nD τ).loc main_arg13) :=
  (StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg13 : W2 m ρ c (Proc.devRef .tc main_arg13) = m ((c : Thread nD τ).loc main_arg13) :=
  (W2_of_ne m ρ c main_arg13 (by decide)).trans (W1_arg13 m ρ c)
theorem W3_arg13 : W3 m ρ c (Proc.devRef .tc main_arg13) = m ((c : Thread nD τ).loc main_arg13) :=
  (StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg13 m ρ c)
theorem W4_arg13 : W4 m ρ c (Proc.devRef .tc main_arg13) = m ((c : Thread nD τ).loc main_arg13) :=
  (W4_of_ne m ρ c main_arg13 (by decide)).trans (W3_arg13 m ρ c)
theorem W5_arg13 : W5 m ρ c (Proc.devRef .tc main_arg13) = m ((c : Thread nD τ).loc main_arg13) :=
  (StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg13 m ρ c)

/-! ### Argument 14 -/
theorem W1_arg14 : W1 m ρ c (Proc.devRef .tc main_arg14) = m ((c : Thread nD τ).loc main_arg14) :=
  (StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg14 : W2 m ρ c (Proc.devRef .tc main_arg14) = m ((c : Thread nD τ).loc main_arg14) :=
  (W2_of_ne m ρ c main_arg14 (by decide)).trans (W1_arg14 m ρ c)
theorem W3_arg14 : W3 m ρ c (Proc.devRef .tc main_arg14) = m ((c : Thread nD τ).loc main_arg14) :=
  (StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg14 m ρ c)
theorem W4_arg14 : W4 m ρ c (Proc.devRef .tc main_arg14) = m ((c : Thread nD τ).loc main_arg14) :=
  (W4_of_ne m ρ c main_arg14 (by decide)).trans (W3_arg14 m ρ c)
theorem W5_arg14 : W5 m ρ c (Proc.devRef .tc main_arg14) = m ((c : Thread nD τ).loc main_arg14) :=
  (StableHlo.after_of_forall_not_mem (b := Proc.devRef .tc main_arg14) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg14 m ρ c)

/-! ### Argument 15 -/
theorem W1_arg15 : W1 m ρ c (Proc.devRef .tc main_arg15) = m ((c : Thread nD τ).loc main_arg15) :=
  (StableHlo.after_of_forall_not_mem (b := Proc.devRef .tc main_arg15) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg15 : W2 m ρ c (Proc.devRef .tc main_arg15) = m ((c : Thread nD τ).loc main_arg15) :=
  (W2_of_ne m ρ c main_arg15 (by decide)).trans (W1_arg15 m ρ c)
theorem W3_arg15 : W3 m ρ c (Proc.devRef .tc main_arg15) = m ((c : Thread nD τ).loc main_arg15) :=
  (StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg15 m ρ c)
theorem W4_arg15 : W4 m ρ c (Proc.devRef .tc main_arg15) = m ((c : Thread nD τ).loc main_arg15) :=
  (W4_of_ne m ρ c main_arg15 (by decide)).trans (W3_arg15 m ρ c)
theorem W5_arg15 : W5 m ρ c (Proc.devRef .tc main_arg15) = m ((c : Thread nD τ).loc main_arg15) :=
  (StableHlo.after_of_forall_not_mem (b := Proc.devRef .tc main_arg15) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg15 m ρ c)

/-! ### Argument 16 -/
theorem W1_arg16 : W1 m ρ c (Proc.devRef .tc main_arg16) = m ((c : Thread nD τ).loc main_arg16) :=
  (StableHlo.after_of_forall_not_mem (b := Proc.devRef .tc main_arg16) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg16 : W2 m ρ c (Proc.devRef .tc main_arg16) = m ((c : Thread nD τ).loc main_arg16) :=
  (W2_of_ne m ρ c main_arg16 (by decide)).trans (W1_arg16 m ρ c)
theorem W3_arg16 : W3 m ρ c (Proc.devRef .tc main_arg16) = m ((c : Thread nD τ).loc main_arg16) :=
  (StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg16 m ρ c)
theorem W4_arg16 : W4 m ρ c (Proc.devRef .tc main_arg16) = m ((c : Thread nD τ).loc main_arg16) :=
  (W4_of_ne m ρ c main_arg16 (by decide)).trans (W3_arg16 m ρ c)
theorem W5_arg16 : W5 m ρ c (Proc.devRef .tc main_arg16) = m ((c : Thread nD τ).loc main_arg16) :=
  (StableHlo.after_of_forall_not_mem (b := Proc.devRef .tc main_arg16) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg16 m ρ c)

/-! ### The degree norms through the first launch -/
theorem W2_v9 : W2 m ρ c (Proc.devRef .tc main_v9) = W1 m ρ c (Proc.devRef .tc main_v9) :=
  W2_of_ne m ρ c main_v9 (by decide)
theorem W2_v12 : W2 m ρ c (Proc.devRef .tc main_v12) = W1 m ρ c (Proc.devRef .tc main_v12) :=
  W2_of_ne m ρ c main_v12 (by decide)

end Cert.KernelIdeal.Reads

end
-- ==== Proof.FirstStretch.lean ====
/-
  What the first stretch of host operations leaves in the buffers the first graph-convolution launch reads, and in
  the buffers later stretches read again.

  The stretch is the same list of operations as the reference's first thirty-odd: the two degree counts by
  scatter-add, the reciprocal square roots of the degrees clamped at one, the in-degree scaled by the out-degree
  norm, gathered along the edges and scatter-added at their targets.  So each buffer holds the reference's stage
  of the same name, as a function of the edge arrays; the bias and the in-degree norm reach the launch reshaped to
  one row and to one column, which are the row and column views.
-/
import proofs.«170102_j71322226918055_2_alg».proof.Proof.Gen.KernelIdeal.Frame
import proofs.«170102_j71322226918055_2_alg».proof.Proof.Gen.ReferenceIdeal.Read
import proofs.«170102_j71322226918055_2_alg».proof.Proof.LibRowCol
import Idealize.ShloMosaic.Lib.StableHlo.Run

set_option maxRecDepth 16384

noncomputable section

namespace Cert.KernelIdeal.Reads

open Cert.KernelIdeal Cert.KernelIdeal.Gen
open Idealize.ShloMosaic Idealize.ShloMosaic.TcCoe Idealize.SL.Sem Idealize.ShloMosaic.StableHlo
open Cert.ReferenceIdeal.Read (val_main_v25 val_main_v12 val_main_v9)

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The aggregated first-layer messages. -/
theorem W1_v25 : (W1 m ρ c (Proc.devRef .tc main_v25) : S100000x1.Idx → EReal)
    = val_main_v25 (F := Ideal) (arg m c main_arg0) (arg m c main_arg1) := by
  show StableHlo.after hostOps0 (W0 m ρ c) (Proc.devRef .tc main_v25) = _
  after_results_simp
  rfl

/-- The out-degree norm. -/
theorem W1_v9 : (W1 m ρ c (Proc.devRef .tc main_v9) : S100000.Idx → EReal)
    = val_main_v9 (F := Ideal) (arg m c main_arg0) := by
  show StableHlo.after hostOps0 (W0 m ρ c) (Proc.devRef .tc main_v9) = _
  after_results_simp
  rfl

/-- The in-degree norm. -/
theorem W1_v12 : (W1 m ρ c (Proc.devRef .tc main_v12) : S100000.Idx → EReal)
    = val_main_v12 (F := Ideal) (arg m c main_arg1) := by
  show StableHlo.after hostOps0 (W0 m ρ c) (Proc.devRef .tc main_v12) = _
  after_results_simp
  rfl

/-- The in-degree norm as one column. -/
theorem W1_v27 : (W1 m ρ c (Proc.devRef .tc main_v27) : S100000x1.Idx → EReal)
    = RowCol.colOf (val_main_v12 (F := Ideal) (arg m c main_arg1)) := by
  show StableHlo.after hostOps0 (W0 m ρ c) (Proc.devRef .tc main_v27) = _
  after_results_simp
  exact RowCol.shapeCast_col _ _

/-- The first bias as one row. -/
theorem W1_v26 : (W1 m ρ c (Proc.devRef .tc main_v26) : S1x64.Idx → EReal)
    = RowCol.rowOf (arg m c main_arg4) := by
  show StableHlo.after hostOps0 (W0 m ρ c) (Proc.devRef .tc main_v26) = _
  after_results_simp
  exact RowCol.shapeCast_row _ _

end Cert.KernelIdeal.Reads

end
-- ==== Proof.SecondStretch.lean ====
/-
  What the second stretch of host operations leaves in the buffers the second graph-convolution launch reads.

  The stretch scales the first layer's output by the out-degree norm, gathers it along the edges and scatter-adds
  it at the edges' targets: the reference's operations of the same place, applied to the first layer's output.
  Given that the first launch left the reference's first-layer stage in its result array, the aggregated messages
  are the reference's stage too; the in-degree norm and the second bias reach the launch as one column and one row.
-/
import proofs.«170102_j71322226918055_2_alg».proof.Proof.Gen.KernelIdeal.Frame
import proofs.«170102_j71322226918055_2_alg».proof.Proof.Gen.ReferenceIdeal.Read
import proofs.«170102_j71322226918055_2_alg».proof.Proof.LibRowCol
import proofs.«170102_j71322226918055_2_alg».proof.Proof.ArgsKept
import proofs.«170102_j71322226918055_2_alg».proof.Proof.FirstStretch
import Idealize.ShloMosaic.Lib.StableHlo.Run

set_option maxRecDepth 16384

noncomputable section

namespace Cert.KernelIdeal.Reads

open Cert.KernelIdeal Cert.KernelIdeal.Gen
open Idealize.ShloMosaic Idealize.ShloMosaic.TcCoe Idealize.SL.Sem Idealize.ShloMosaic.StableHlo
open Cert.ReferenceIdeal.Read (val_main_v32 val_main_v45 val_main_v12 val_main_v9)

variable (m : (ℓ : Loc nD τ sig) → Buf (Elt Ideal) ℓ) (ρ : Dev nD → PrngReg) (c : Dev nD)

/-- The aggregated second-layer messages. -/
theorem W3_v41
    (h28 : (W2 m ρ c (Proc.devRef .tc main_v28) : S100000x64.Idx → EReal)
      = val_main_v32 (F := Ideal) (arg m c main_arg0) (arg m c main_arg1) (arg m c main_arg3) (arg m c main_arg4)) :
    (W3 m ρ c (Proc.devRef .tc main_v41) : S100000x64.Idx → EReal)
      = val_main_v45 (F := Ideal) (arg m c main_arg0) (arg m c main_arg1) (arg m c main_arg3) (arg m c main_arg4) := by
  show StableHlo.after hostOps1 (W2 m ρ c) (Proc.devRef .tc main_v41) = _
  after_results_simp
  rw [h28, W2_v9, W1_v9, W2_arg0, W2_arg1]
  rfl

/-- The in-degree norm as one column. -/
theorem W3_v43 : (W3 m ρ c (Proc.devRef .tc main_v43) : S100000x1.Idx → EReal)
    = RowCol.colOf (val_main_v12 (F := Ideal) (arg m c main_arg1)) := by
  show StableHlo.after hostOps1 (W2 m ρ c) (Proc.devRef .tc main_v43) = _
  after_results_simp
  rw [W2_v12, W1_v12]
  exact RowCol.shapeCast_col _ _

/-- The second bias as one row. -/
theorem W3_v42 : (W3 m ρ c (Proc.devRef .tc main_v42) : S1x64.Idx → EReal)
    = RowCol.rowOf (arg m c main_arg6) := by
  show StableHlo.after hostOps1 (W2 m ρ c) (Proc.devRef .tc main_v42) = _
  after_results_simp
  rw [W2_arg6]
  exact RowCol.shapeCast_row _ _

end Cert.KernelIdeal.Reads

end
-- ==== Proof.ThirdStretch.lean ====
/-
  What the third stretch of host operations leaves in the buffers the classifier's launch reads.

  The stretch counts the nodes of each graph, scatter-adds the second layer's output by graph and divides by the
  counts clamped at one: the reference's mean readout, applied to the second layer's output.  Given that the second
  launch left the reference's second-layer stage in its result array, the readout is the reference's stage; the
  five bias vectors reach the launch reshaped to one row each.
-/
import proofs.«170102_j71322226918055_2_alg».proof.Proof.Gen.KernelIdeal.Frame
import proofs.«170102_j71322226918055_2_alg».proof.Proof.Gen.ReferenceIdeal.Read
import proofs.«170102_j71322226918055_2_alg».proof.Proof.LibRowCol
import proofs.«170102_j71322226918055_2_alg».proof.Proof.ArgsKept
import proofs.«170102_j71322226918055_2_alg».proof.Proof.FirstStretch
import Idealize.ShloMosaic.Lib.StableHlo.Run

set_option maxRecDepth 16384

noncomputable section

namespace Cert.KernelIdeal.Reads

open Cert.KernelIdeal Cert.KernelIdeal.Gen
open Idealize.ShloMosaic Idealize.ShloMosaic.TcCoe Idealize.SL.Sem Idealize.ShloMosaic.StableHlo
open Cert.ReferenceIdeal.Read (val_main_v52 val_main_v64)

variable (m : (ℓ : Loc nD τ sig) → Buf (Elt Ideal) ℓ) (ρ : Dev nD → PrngReg) (c : Dev nD)

/-- The mean readout per graph. -/
theorem W5_v56
    (h44 : (W4 m ρ c (Proc.devRef .tc main_v44) : S100000x64.Idx → EReal)
      = val_main_v52 (F := Ideal) (arg m c main_arg0) (arg m c main_arg1) (arg m c main_arg3) (arg m c main_arg4)
          (arg m c main_arg5) (arg m c main_arg6)) :
    (W5 m ρ c (Proc.devRef .tc main_v56) : S64x64.Idx → EReal)
      = val_main_v64 (F := Ideal) (arg m c main_arg0) (arg m c main_arg1) (arg m c main_arg2) (arg m c main_arg3)
          (arg m c main_arg4) (arg m c main_arg5) (arg m c main_arg6) := by
  show StableHlo.after hostOps2 (W4 m ρ c) (Proc.devRef .tc main_v56) = _
  after_results_simp
  rw [h44, W4_arg2]
  rfl

/-- A classifier bias as one row. -/
theorem W5_v57 : (W5 m ρ c (Proc.devRef .tc main_v57) : S1x512.Idx → EReal)
    = RowCol.rowOf (arg m c main_arg8) := by
  show StableHlo.after hostOps2 (W4 m ρ c) (Proc.devRef .tc main_v57) = _
  after_results_simp
  rw [W4_arg8]
  exact RowCol.shapeCast_row _ _

/-- A classifier bias as one row. -/
theorem W5_v58 : (W5 m ρ c (Proc.devRef .tc main_v58) : S1x1024.Idx → EReal)
    = RowCol.rowOf (arg m c main_arg10) := by
  show StableHlo.after hostOps2 (W4 m ρ c) (Proc.devRef .tc main_v58) = _
  after_results_simp
  rw [W4_arg10]
  exact RowCol.shapeCast_row _ _

/-- A classifier bias as one row. -/
theorem W5_v59 : (W5 m ρ c (Proc.devRef .tc main_v59) : S1x1024.Idx → EReal)
    = RowCol.rowOf (arg m c main_arg12) := by
  show StableHlo.after hostOps2 (W4 m ρ c) (Proc.devRef .tc main_v59) = _
  after_results_simp
  rw [W4_arg12]
  exact RowCol.shapeCast_row _ _

/-- A classifier bias as one row. -/
theorem W5_v60 : (W5 m ρ c (Proc.devRef .tc main_v60) : S1x512.Idx → EReal)
    = RowCol.rowOf (arg m c main_arg14) := by
  show StableHlo.after hostOps2 (W4 m ρ c) (Proc.devRef .tc main_v60) = _
  after_results_simp
  rw [W4_arg14]
  exact RowCol.shapeCast_row _ _

/-- A classifier bias as one row. -/
theorem W5_v61 : (W5 m ρ c (Proc.devRef .tc main_v61) : S1x10.Idx → EReal)
    = RowCol.rowOf (arg m c main_arg16) := by
  show StableHlo.after hostOps2 (W4 m ρ c) (Proc.devRef .tc main_v61) = _
  after_results_simp
  rw [W4_arg16]
  exact RowCol.shapeCast_row _ _

end Cert.KernelIdeal.Reads

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.Conv1.lean ====
/-
  The first graph-convolution launch computes the first layer of the network, band of rows by band of rows.

  At a grid point the body multiplies the band's one-column block of aggregated messages by the band's one-column block
  of normalisations, multiplies the product (a one-column array) by the one-row weight array, adds the bias row and
  takes the maximum with zero.  Entry (p, q) of that is the network's layer read at row "band's first row + p" and
  column q, because the layer is row-wise.  Point t writes rows 10000 t … 10000 t + 9999, so the ten points cover the
  array and the array ends holding the layer.
-/
import proofs.«170102_j71322226918055_2_alg».proof.Proof.Gen.KernelIdeal.Frame
import proofs.«170102_j71322226918055_2_alg».proof.Proof.GraphNet
import proofs.«170102_j71322226918055_2_alg».proof.Proof.LibMatProd
import proofs.«170102_j71322226918055_2_alg».proof.Proof.LibRowCol
import Idealize.ShloMosaic.Lib.Pipeline.Value
import Idealize.ShloMosaic.Lib.ValueLayout

noncomputable section

open scoped BigOperators

namespace Cert.KernelIdeal.ConvValue

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix unit's dimension numbers: rows of the left operand against columns of the right one -/

theorem dotA_lhs0 (i : S10000x64.Idx) (q : dot_S10000x1_S1x64_S10000x64_1_0_0_1_n_n.contr.Idx) :
    (dot_S10000x1_S1x64_S10000x64_1_0_0_1_n_n.lhsIdx i q 0).val = (i 0).val := by
  unfold DotDims.lhsIdx
  rw [dif_neg (show ¬(0 : Fin S10000x1.rank) ∈ dot_S10000x1_S1x64_S10000x64_1_0_0_1_n_n.lhsBatch by decide), dif_pos (show (0 : Fin S10000x1.rank) ∈ dot_S10000x1_S1x64_S10000x64_1_0_0_1_n_n.lhsNonContracting by decide)]
  rfl
theorem dotA_lhs1 (i : S10000x64.Idx) (q : dot_S10000x1_S1x64_S10000x64_1_0_0_1_n_n.contr.Idx) :
    (dot_S10000x1_S1x64_S10000x64_1_0_0_1_n_n.lhsIdx i q 1).val = (q ⟨0, by decide⟩).val :=
  dot_S10000x1_S1x64_S10000x64_1_0_0_1_n_n.lhsIdx_val_of_single rfl i q
theorem dotA_rhs0 (i : S10000x64.Idx) (q : dot_S10000x1_S1x64_S10000x64_1_0_0_1_n_n.contr.Idx) :
    (dot_S10000x1_S1x64_S10000x64_1_0_0_1_n_n.rhsIdx i q 0).val = (q ⟨0, by decide⟩).val :=
  dot_S10000x1_S1x64_S10000x64_1_0_0_1_n_n.rhsIdx_val_of_single rfl i q
theorem dotA_rhs1 (i : S10000x64.Idx) (q : dot_S10000x1_S1x64_S10000x64_1_0_0_1_n_n.contr.Idx) :
    (dot_S10000x1_S1x64_S10000x64_1_0_0_1_n_n.rhsIdx i q 1).val = (i 1).val := by
  unfold DotDims.rhsIdx
  rw [dif_neg (show ¬(1 : Fin S1x64.rank) ∈ dot_S10000x1_S1x64_S10000x64_1_0_0_1_n_n.rhsBatch by decide), dif_pos (show (1 : Fin S1x64.rank) ∈ dot_S10000x1_S1x64_S10000x64_1_0_0_1_n_n.rhsNonContracting by decide)]
  rfl

/-! ## The body's result at an entry -/

/-- Entry (p, q) of what the body stores: the sum over the one contracted coordinate of (message times normalisation)
    times weight, plus the bias, maximum with zero. -/
theorem pay1_apply (x0 x1 : Vec Ideal S10000x1 .f32) (x2 x3 : Vec Ideal S1x64 .f32) (p : Fin 10000) (q : Fin 64) :
    k0_pay1 (F := Ideal) x0 x1 x2 x3 (ix2 p q)
      = max ((∑ l : Fin 1, (x0 (ix2 p l) * x1 (ix2 p (0 : Fin 1))) * x2 (ix2 l q)) + x3 (ix2 (0 : Fin 1) q)) GcnSpec.zeroF := by
  unfold k0_pay1
  rw [maximumf_apply, addf_apply, broadcast_apply, shapeCast_self, shapeCast_self, shapeCast_self, broadcastTo_1b_ab_apply]
  refine congrArg₂ max (congrArg₂ (· + ·) ?_ rfl) rfl
  refine (MatProd.matmul_zero_entry dot_S10000x1_S1x64_S10000x64_1_0_0_1_n_n none rfl rfl dotA_lhs0 dotA_lhs1 dotA_rhs0 dotA_rhs1
    _ _ p q).trans ?_
  unfold MatProd.entry
  refine Finset.sum_congr rfl fun l _ => ?_
  have hl : l = 0 := Subsingleton.elim _ _
  rw [truncf_apply, truncf_apply, mulf_apply, hl]

/-! ## The blocks of a grid point -/

section Blocks

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the ten points: the two one-column operands and the result move with the
    point along the rows; the weight row and the bias row stay. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The block of aggregated messages at point t is rows 10000 t … of the array. -/
theorem blk0_0_apply (c : Dev nD) (t : Fin cfg0.N) (p : Fin 10000) (l : Fin 1) (r : Fin 100000)
    (hr : r.val = t.val * 10000 + p.val) :
    (iblk0 (F := Ideal) V c 0 t : Vec Ideal S10000x1 .f32) (ix2 p l) = (V c main_v25 : S100000x1.Idx → EReal) (ix2 r l) := by
  obtain ⟨e0, e1, -⟩ := index_facts0 t
  show V c main_v25 (((cfg0.win 0).blk t).view.emb (ix2 p l)) = V c main_v25 (ix2 r l)
  refine congrArg _ (funext fun a => Fin.ext ?_)
  match a with
  | ⟨0, _⟩ => show win0_0.index t (0 : Fin 2) * 10000 + 1 * p.val = r.val; omega
  | ⟨1, _⟩ => show win0_0.index t (1 : Fin 2) * 1 + 1 * l.val = l.val; omega

/-- The block of normalisations at point t is rows 10000 t … of the array. -/
theorem blk0_1_apply (c : Dev nD) (t : Fin cfg0.N) (p : Fin 10000) (l : Fin 1) (r : Fin 100000)
    (hr : r.val = t.val * 10000 + p.val) :
    (iblk0 (F := Ideal) V c 1 t : Vec Ideal S10000x1 .f32) (ix2 p l) = (V c main_v27 : S100000x1.Idx → EReal) (ix2 r l) := by
  obtain ⟨-, -, e2, e3, -⟩ := index_facts0 t
  show V c main_v27 (((cfg0.win 1).blk t).view.emb (ix2 p l)) = V c main_v27 (ix2 r l)
  refine congrArg _ (funext fun a => Fin.ext ?_)
  match a with
  | ⟨0, _⟩ => show win0_1.index t (0 : Fin 2) * 10000 + 1 * p.val = r.val; omega
  | ⟨1, _⟩ => show win0_1.index t (1 : Fin 2) * 1 + 1 * l.val = l.val; omega

/-- The weight block at every point is the whole weight row. -/
theorem blk0_2_apply (c : Dev nD) (t : Fin cfg0.N) (l : Fin 1) (q : Fin 64) :
    (iblk0 (F := Ideal) V c 2 t : Vec Ideal S1x64 .f32) (ix2 l q) = (V c main_arg3 : S1x64.Idx → EReal) (ix2 l q) := by
  obtain ⟨-, -, -, -, e4, e5, -⟩ := index_facts0 t
  show V c main_arg3 (((cfg0.win 2).blk t).view.emb (ix2 l q)) = V c main_arg3 (ix2 l q)
  refine congrArg _ (funext fun a => Fin.ext ?_)
  match a with
  | ⟨0, _⟩ => show win0_2.index t (0 : Fin 2) * 1 + 1 * l.val = l.val; omega
  | ⟨1, _⟩ => show win0_2.index t (1 : Fin 2) * 64 + 1 * q.val = q.val; omega

/-- The bias block at every point is the whole bias row. -/
theorem blk0_3_apply (c : Dev nD) (t : Fin cfg0.N) (l : Fin 1) (q : Fin 64) :
    (iblk0 (F := Ideal) V c 3 t : Vec Ideal S1x64 .f32) (ix2 l q) = (V c main_v26 : S1x64.Idx → EReal) (ix2 l q) := by
  obtain ⟨-, -, -, -, -, -, e6, e7, -⟩ := index_facts0 t
  show V c main_v26 (((cfg0.win 3).blk t).view.emb (ix2 l q)) = V c main_v26 (ix2 l q)
  refine congrArg _ (funext fun a => Fin.ext ?_)
  match a with
  | ⟨0, _⟩ => show win0_3.index t (0 : Fin 2) * 1 + 1 * l.val = l.val; omega
  | ⟨1, _⟩ => show win0_3.index t (1 : Fin 2) * 64 + 1 * q.val = q.val; omega

/-- Entry (p, q) of the result's block at point t sits at row 10000 t + p, column q of the array. -/
theorem emb0_4 (t : Fin cfg0.N) (p : Fin 10000) (q : Fin 64) (r : Fin 100000) (hr : r.val = t.val * 10000 + p.val) :
    ((cfg0.win 4).blk t).view.emb (ix2 p q : S10000x64.Idx) = (ix2 r q : S100000x64.Idx) := by
  obtain ⟨-, -, -, -, -, -, -, -, e8, e9⟩ := index_facts0 t
  refine funext fun a => Fin.ext ?_
  match a with
  | ⟨0, _⟩ => show win0_4.index t (0 : Fin 2) * 10000 + 1 * p.val = r.val; omega
  | ⟨1, _⟩ => show win0_4.index t (1 : Fin 2) * 64 + 1 * q.val = q.val; omega

/-- WHAT POINT t WRITES BACK is block t of the first layer of the arrays as the launch finds them. -/
theorem flushed0_eq (c : Dev nD) (t : Fin cfg0.N) :
    (dat0 (F := Ideal) V c).flushed 4 t
      = ((cfg0.win 4).blk t).view.read (Elt Ideal)
          (GraphNet.conv1 (n := 100000) (k := 1) (q := 64) (V c main_v25) (V c main_v27) (V c main_arg3) (V c main_v26)) := by
  show (cfg0.win 4).cut (grid0.coords t) ((dat0 V c).after 4 t) = _
  rw [after0_4]
  unfold out0_4
  rw [View.canon_unit_zero zero_offsets]
  simp only [View.ld_unit_zero (S := S10000x1) zero_offsets, View.ld_unit_zero (S := S1x64) zero_offsets]
  funext j
  obtain ⟨p, q, rfl⟩ : ∃ (p : Fin 10000) (q : Fin 64), j = ix2 p q := ⟨j 0, j 1, eq_ix2 j⟩
  have ht : t.val < 10 := Nat.lt_of_lt_of_eq t.isLt N_0
  obtain ⟨r, hr⟩ : ∃ r : Fin 100000, r.val = t.val * 10000 + p.val := ⟨⟨t.val * 10000 + p.val, by have := p.isLt; omega⟩, rfl⟩
  show k0_pay1 (F := Ideal) (iblk0 V c 0 t) (iblk0 V c 1 t) (iblk0 V c 2 t) (iblk0 V c 3 t) (ix2 p q)
    = GraphNet.conv1 (n := 100000) (k := 1) (q := 64) (V c main_v25) (V c main_v27) (V c main_arg3) (V c main_v26)
        (((cfg0.win 4).blk t).view.emb (ix2 p q))
  rw [emb0_4 t p q r hr, GraphNet.conv1_ix2]
  refine (pay1_apply _ _ _ _ p q).trans ?_
  refine congrArg₂ max (congrArg₂ (· + ·) (Finset.sum_congr rfl fun l _ => ?_) ?_) rfl
  · rw [blk0_0_apply V c t p l r hr, blk0_1_apply V c t p 0 r hr, blk0_2_apply V c t l q]
  · exact blk0_3_apply V c t 0 q

/-- An index of the array is in point t's block iff each coordinate is in the block's range on its axis. -/
theorem mem_blk0_4 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v28).slice (win0_4.rect t)).set ↔ _
  rw [View.set_slice_whole, Rect.mem_set_unit]
  exact Iff.rfl

/-- Row r lies in the block of point r / 10000: the ten blocks cover the array. -/
theorem cover0 (i : S100000x64.Idx) : ∃ t : Fin cfg0.N, (cfg0.win 4).flush t = true ∧ i ∈ ((cfg0.win 4).blk t).view.set := by
  have h0 : (i 0).val < 100000 := idx2_lt0 i
  have h1 : (i 1).val < 64 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, -, -, -, e8, e9⟩ := index_facts0 t
  refine ⟨t, flush0_4 t, ?_⟩
  rw [mem_blk0_4]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- THE ARRAY after the launch is the first layer of the arrays as the launch finds them. -/
theorem conv1_final (c : Dev nD) :
    (dat0 (F := Ideal) V c).arrAt 4 cfg0.N
      = GraphNet.conv1 (n := 100000) (k := 1) (q := 64) (V c main_v25) (V c main_v27) (V c main_arg3) (V c main_v26) :=
  (dat0 (F := Ideal) V c).arrAt_eq_of_cover 4 _ (fun t _ => flushed0_eq V c t) (fun i => cover0 i)

end Blocks

end Cert.KernelIdeal.ConvValue

end
-- ==== Proof.Conv2.lean ====
/-
  The second graph-convolution launch computes the second layer of the network, band of rows by band of rows.

  At a grid point the body multiplies every entry of the band's block of aggregated messages by the normalisation of its
  row (the band's one-column block broadcast along the row), multiplies the product by the weight matrix and adds the
  bias row.  Entry (p, q) of that is the network's layer read at row "band's first row + p" and column q, because the
  layer is row-wise.  Point t writes rows 10000 t … 10000 t + 9999, so the ten points cover the array and the array
  ends holding the layer.
-/
import proofs.«170102_j71322226918055_2_alg».proof.Proof.Gen.KernelIdeal.Frame
import proofs.«170102_j71322226918055_2_alg».proof.Proof.GraphNet
import proofs.«170102_j71322226918055_2_alg».proof.Proof.LibMatProd
import proofs.«170102_j71322226918055_2_alg».proof.Proof.LibRowCol
import Idealize.ShloMosaic.Lib.Pipeline.Value
import Idealize.ShloMosaic.Lib.ValueLayout

noncomputable section

open scoped BigOperators

namespace Cert.KernelIdeal.ConvValue

open Cert.KernelIdeal Cert.KernelIdeal.Gen Idealize.ShloMosaic Idealize.ShloMosaic.TcCoe Idealize.SL.Sem
open Idealize.ShloMosaic.ValueIdx
open Idealize.ShloMosaic.Pipeline (Dat)

/-! ## The matrix unit's dimension numbers: rows of the left operand against columns of the right one -/

theorem dotB_lhs0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dotB_lhs1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dotB_rhs0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dotB_rhs1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## The body's result at an entry -/

/-- Entry (p, q) of what the body stores: the sum over the contracted coordinate of (message times the row's
    normalisation) times weight, plus the bias. -/
theorem pay2_apply (x0 : Vec Ideal S10000x64 .f32) (x1 : Vec Ideal S10000x1 .f32) (x2 : Vec Ideal S64x64 .f32)
    (x3 : Vec Ideal S1x64 .f32) (p : Fin 10000) (q : Fin 64) :
    k1_pay1 (F := Ideal) x0 x1 x2 x3 (ix2 p q)
      = (∑ l : Fin 64, (x0 (ix2 p l) * x1 (ix2 p (0 : Fin 1))) * x2 (ix2 l q)) + x3 (ix2 (0 : Fin 1) q) := by
  unfold k1_pay1
  rw [addf_apply, shapeCast_self, shapeCast_self, shapeCast_self, broadcastTo_1b_ab_apply]
  refine congrArg₂ (· + ·) ?_ rfl
  refine (MatProd.matmul_zero_entry dot_S10000x64_S64x64_S10000x64_1_0_0_1_n_n none rfl rfl dotB_lhs0 dotB_lhs1 dotB_rhs0 dotB_rhs1
    _ _ p q).trans ?_
  unfold MatProd.entry
  refine Finset.sum_congr rfl fun l _ => ?_
  rw [truncf_apply, truncf_apply, mulf_apply, RowCol.broadcastTo_a1_ab_apply]

/-! ## The blocks of a grid point -/

section Blocks

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps, decided over the ten points: the block of messages, the one-column block of normalisations
    and the result move with the point along the rows; the weight matrix and the bias row stay. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of aggregated messages at point t is rows 10000 t … of the array. -/
theorem blk1_0_apply (c : Dev nD) (t : Fin cfg1.N) (p : Fin 10000) (l : Fin 64) (r : Fin 100000)
    (hr : r.val = t.val * 10000 + p.val) :
    (iblk1 (F := Ideal) V c 0 t : Vec Ideal S10000x64 .f32) (ix2 p l) = (V c main_v41 : S100000x64.Idx → EReal) (ix2 r l) := by
  obtain ⟨e0, e1, -⟩ := index_facts1 t
  show V c main_v41 (((cfg1.win 0).blk t).view.emb (ix2 p l)) = V c main_v41 (ix2 r l)
  refine congrArg _ (funext fun a => Fin.ext ?_)
  match a with
  | ⟨0, _⟩ => show win1_0.index t (0 : Fin 2) * 10000 + 1 * p.val = r.val; omega
  | ⟨1, _⟩ => show win1_0.index t (1 : Fin 2) * 64 + 1 * l.val = l.val; omega

/-- The block of normalisations at point t is rows 10000 t … of the array. -/
theorem blk1_1_apply (c : Dev nD) (t : Fin cfg1.N) (p : Fin 10000) (l : Fin 1) (r : Fin 100000)
    (hr : r.val = t.val * 10000 + p.val) :
    (iblk1 (F := Ideal) V c 1 t : Vec Ideal S10000x1 .f32) (ix2 p l) = (V c main_v43 : S100000x1.Idx → EReal) (ix2 r l) := by
  obtain ⟨-, -, e2, e3, -⟩ := index_facts1 t
  show V c main_v43 (((cfg1.win 1).blk t).view.emb (ix2 p l)) = V c main_v43 (ix2 r l)
  refine congrArg _ (funext fun a => Fin.ext ?_)
  match a with
  | ⟨0, _⟩ => show win1_1.index t (0 : Fin 2) * 10000 + 1 * p.val = r.val; omega
  | ⟨1, _⟩ => show win1_1.index t (1 : Fin 2) * 1 + 1 * l.val = l.val; omega

/-- The weight block at every point is the whole weight matrix. -/
theorem blk1_2_apply (c : Dev nD) (t : Fin cfg1.N) (l : Fin 64) (q : Fin 64) :
    (iblk1 (F := Ideal) V c 2 t : Vec Ideal S64x64 .f32) (ix2 l q) = (V c main_arg5 : S64x64.Idx → EReal) (ix2 l q) := by
  obtain ⟨-, -, -, -, e4, e5, -⟩ := index_facts1 t
  show V c main_arg5 (((cfg1.win 2).blk t).view.emb (ix2 l q)) = V c main_arg5 (ix2 l q)
  refine congrArg _ (funext fun a => Fin.ext ?_)
  match a with
  | ⟨0, _⟩ => show win1_2.index t (0 : Fin 2) * 64 + 1 * l.val = l.val; omega
  | ⟨1, _⟩ => show win1_2.index t (1 : Fin 2) * 64 + 1 * q.val = q.val; omega

/-- The bias block at every point is the whole bias row. -/
theorem blk1_3_apply (c : Dev nD) (t : Fin cfg1.N) (l : Fin 1) (q : Fin 64) :
    (iblk1 (F := Ideal) V c 3 t : Vec Ideal S1x64 .f32) (ix2 l q) = (V c main_v42 : S1x64.Idx → EReal) (ix2 l q) := by
  obtain ⟨-, -, -, -, -, -, e6, e7, -⟩ := index_facts1 t
  show V c main_v42 (((cfg1.win 3).blk t).view.emb (ix2 l q)) = V c main_v42 (ix2 l q)
  refine congrArg _ (funext fun a => Fin.ext ?_)
  match a with
  | ⟨0, _⟩ => show win1_3.index t (0 : Fin 2) * 1 + 1 * l.val = l.val; omega
  | ⟨1, _⟩ => show win1_3.index t (1 : Fin 2) * 64 + 1 * q.val = q.val; omega

/-- Entry (p, q) of the result's block at point t sits at row 10000 t + p, column q of the array. -/
theorem emb1_4 (t : Fin cfg1.N) (p : Fin 10000) (q : Fin 64) (r : Fin 100000) (hr : r.val = t.val * 10000 + p.val) :
    ((cfg1.win 4).blk t).view.emb (ix2 p q : S10000x64.Idx) = (ix2 r q : S100000x64.Idx) := by
  obtain ⟨-, -, -, -, -, -, -, -, e8, e9⟩ := index_facts1 t
  refine funext fun a => Fin.ext ?_
  match a with
  | ⟨0, _⟩ => show win1_4.index t (0 : Fin 2) * 10000 + 1 * p.val = r.val; omega
  | ⟨1, _⟩ => show win1_4.index t (1 : Fin 2) * 64 + 1 * q.val = q.val; omega

/-- WHAT POINT t WRITES BACK is block t of the second layer of the arrays as the launch finds them. -/
theorem flushed1_eq (c : Dev nD) (t : Fin cfg1.N) :
    (dat1 (F := Ideal) V c).flushed 4 t
      = ((cfg1.win 4).blk t).view.read (Elt Ideal)
          (GraphNet.conv2 (n := 100000) (k := 64) (q := 64) (V c main_v41) (V c main_v43) (V c main_arg5) (V c main_v42)) := by
  show (cfg1.win 4).cut (grid1.coords t) ((dat1 V c).after 4 t) = _
  rw [after1_4]
  unfold out1_4
  rw [View.canon_unit_zero zero_offsets1]
  simp only [View.ld_unit_zero (S := S10000x64) zero_offsets1, View.ld_unit_zero (S := S10000x1) zero_offsets1,
    View.ld_unit_zero (S := S64x64) zero_offsets1, View.ld_unit_zero (S := S1x64) zero_offsets1]
  funext j
  obtain ⟨p, q, rfl⟩ : ∃ (p : Fin 10000) (q : Fin 64), j = ix2 p q := ⟨j 0, j 1, eq_ix2 j⟩
  have ht : t.val < 10 := Nat.lt_of_lt_of_eq t.isLt N_1
  obtain ⟨r, hr⟩ : ∃ r : Fin 100000, r.val = t.val * 10000 + p.val := ⟨⟨t.val * 10000 + p.val, by have := p.isLt; omega⟩, rfl⟩
  show k1_pay1 (F := Ideal) (iblk1 V c 0 t) (iblk1 V c 1 t) (iblk1 V c 2 t) (iblk1 V c 3 t) (ix2 p q)
    = GraphNet.conv2 (n := 100000) (k := 64) (q := 64) (V c main_v41) (V c main_v43) (V c main_arg5) (V c main_v42)
        (((cfg1.win 4).blk t).view.emb (ix2 p q))
  rw [emb1_4 t p q r hr, GraphNet.conv2_ix2]
  refine (pay2_apply _ _ _ _ p q).trans ?_
  refine congrArg₂ (· + ·) (Finset.sum_congr rfl fun l _ => ?_) ?_
  · rw [blk1_0_apply V c t p l r hr, blk1_1_apply V c t p 0 r hr, blk1_2_apply V c t l q]
  · exact blk1_3_apply V c t 0 q

/-- An index of the array is in point t's block iff each coordinate is in the block's range on its axis. -/
theorem mem_blk1_4 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v44).slice (win1_4.rect t)).set ↔ _
  rw [View.set_slice_whole, Rect.mem_set_unit]
  exact Iff.rfl

/-- Row r lies in the block of point r / 10000: the ten blocks cover the array. -/
theorem cover1 (i : S100000x64.Idx) : ∃ t : Fin cfg1.N, (cfg1.win 4).flush t = true ∧ i ∈ ((cfg1.win 4).blk t).view.set := by
  have h0 : (i 0).val < 100000 := idx2_lt0 i
  have h1 : (i 1).val < 64 := idx2_lt1 i
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, -, -, e8, e9⟩ := index_facts1 t
  refine ⟨t, flush1_4 t, ?_⟩
  rw [mem_blk1_4]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-- THE ARRAY after the launch is the second layer of the arrays as the launch finds them. -/
theorem conv2_final (c : Dev nD) :
    (dat1 (F := Ideal) V c).arrAt 4 cfg1.N
      = GraphNet.conv2 (n := 100000) (k := 64) (q := 64) (V c main_v41) (V c main_v43) (V c main_arg5) (V c main_v42) :=
  (dat1 (F := Ideal) V c).arrAt_eq_of_cover 4 _ (fun t _ => flushed1_eq V c t) (fun i => cover1 i)

end Blocks

end Cert.KernelIdeal.ConvValue

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«170102_j71322226918055_2_alg».proof.Proof.LibRowWise
import proofs.«170102_j71322226918055_2_alg».proof.Proof.LibMatProd
import proofs.«170102_j71322226918055_2_alg».proof.Proof.LibRowCol
import proofs.«170102_j71322226918055_2_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.LibSoftmax.lean ====
/-
  The bias row and the softmax as row-wise layers.

  A companion to the operation chains for "lin", "relu" and the logarithm of the softmax: the same chains with the
  last step changed.  Over arrays with ANY number "n" of rows and "k" of columns:

  * adding a one-row array broadcast over the rows, with no maximum afterwards, is "GraphNet.bias" — whether the row
    is a loaded one-row block broadcast over the rows ("bias_body") or a vector broadcast twice on the host
    ("bias_host", the bias then being the vector's one-row view);
  * the same followed by the maximum with zero is "GcnSpec.relu", here with the block NOT wrapped in a cast
    ("relu_body_plain": the block that meets the bias is a matrix product, not a load), and on the host with the bias
    read through its one-row view ("relu_host_row");
  * the exponential of the row shifted by its maximum, divided by the row sum of those exponentials put back beside
    the rows, is the softmax of every row ("GraphNet.softmax"), whether the maximum and the sum are lane reductions
    and the sum returns through a cast and a broadcast ("softmax_body"), or they are host reductions and the sum
    returns through two broadcasts ("softmax_host").

  All reductions are over the second axis.
-/
import Idealize.ShloMosaic.Lib.Pipeline.Value
import Idealize.ShloMosaic.Lib.ValueIdx
import Idealize.ShloMosaic.Lib.ValueLayout
import Idealize.ShloMosaic.PureOps.Ideal.Laws
import proofs.«170102_j71322226918055_2_alg».proof.Proof.LibRowOps
import proofs.«170102_j71322226918055_2_alg».proof.Proof.GraphNet

noncomputable section

open scoped BigOperators

namespace GcnOps

open Idealize.ShloMosaic Idealize.ShloMosaic.ValueIdx GcnSpec

variable {n k : ℕ}

/-! ## The bias row, with and without the maximum with zero -/

/-- As a kernel body spells it: the one-row bias block loaded (a cast to its own shape) and broadcast over the rows,
    added to a block that is not itself wrapped in a cast. -/
theorem bias_body (x : FVec Ideal (⟨2, ![n, k]⟩ : Shape) .f32) (b : FVec Ideal (⟨2, ![1, k]⟩ : Shape) .f32)
    (h2 : (⟨2, ![1, k]⟩ : Shape).ShapeCasts ⟨2, ![1, k]⟩) (hb : (⟨2, ![1, k]⟩ : Shape).Broadcasts ⟨2, ![n, k]⟩) :
    addf x (broadcastTo ⟨2, ![n, k]⟩ (shapeCast ⟨2, ![1, k]⟩ b h2) hb) = GraphNet.bias x b := by
  rw [shapeCast_self]
  refine eq_rowMap _ _ _ fun r c => ?_
  rw [addf_apply, broadcastTo_1b_ab_apply]
  rfl

/-- Bias, then the maximum with zero, as a kernel body spells it when the block that meets the bias is not wrapped in
    a cast: the one-row bias block loaded and broadcast over the rows, the zero a scalar splat. -/
theorem relu_body_plain (x : FVec Ideal (⟨2, ![n, k]⟩ : Shape) .f32) (b : FVec Ideal (⟨2, ![1, k]⟩ : Shape) .f32)
    (h2 : (⟨2, ![1, k]⟩ : Shape).ShapeCasts ⟨2, ![1, k]⟩) (hb : (⟨2, ![1, k]⟩ : Shape).Broadcasts ⟨2, ![n, k]⟩) :
    maximumf (addf x (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self]
  refine eq_rowMap _ _ _ fun r c => ?_
  rw [maximumf_apply, addf_apply, broadcast_apply, broadcastTo_1b_ab_apply]
  rfl

/-- As the host spells it: the bias vector broadcast in two steps and added.  The bias is the vector's one-row view. -/
theorem bias_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2)) :
    addf a (broadcastInDim (⟨2, ![n, k]⟩ : Shape) (![0, 1] : Fin 2 → Fin 2) h2
        (broadcastInDim (⟨2, ![1, k]⟩ : Shape) (![1] : Fin 1 → Fin 2) h1 b))
      = GraphNet.bias a (RowCol.rowOf b) := by
  have hsc : (⟨1, ![k]⟩ : Shape).ShapeCasts ⟨2, ![1, k]⟩ := by
    show (⟨2, ![1, k]⟩ : Shape).numel = (⟨1, ![k]⟩ : Shape).numel
    simp [Shape.numel, Fin.prod_univ_two]
  refine eq_rowMap _ _ _ fun r c => ?_
  rw [addf_apply, bias_host_apply b h1 h2 hsc r c, RowCol.shapeCast_row]
  rfl

/-- Bias, then the maximum with zero, as the host spells it, the bias read through the vector's one-row view. -/
theorem relu_host_row (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2)) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (RowCol.rowOf b) := by
  have hsc : (⟨1, ![k]⟩ : Shape).ShapeCasts ⟨2, ![1, k]⟩ := by
    show (⟨2, ![1, k]⟩ : Shape).numel = (⟨1, ![k]⟩ : Shape).numel
    simp [Shape.numel, Fin.prod_univ_two]
  rw [relu_host a b h1 h2 h0 hsc, RowCol.shapeCast_row]

/-! ## The softmax -/

/-- The softmax of every row, as a kernel body spells it: the exponential of the shifted block over its lane sum along
    the row, the sum cast to one column and broadcast over the columns. -/
theorem softmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    divf (exp (shiftBody y hR hφ hacc hc hb)) (broadcastTo ⟨2, ![n, k]⟩
      (shapeCast ⟨2, ![n, 1]⟩
        (multiReduction .add [1] (⟨1, ![n]⟩ : Shape) (exp (shiftBody y hR hφ hacc hc hb)) 0x00000000#32 hR hφ hacc0) hc) hb)
      = GraphNet.softmax y := by
  refine eq_rowMap _ _ _ fun r c => ?_
  rw [divf_apply, exp_apply, shiftBody_apply, RowCol.broadcastTo_a1_ab_apply, RowCol.shapeCast_a_a1_apply, rowSum_body]
  show _ = Ideal.div (Ideal.exp (shifted (row y r) c)) (∑ l : Fin k, Ideal.exp (shifted (row y r) l))
  refine congrArg (fun s => Ideal.div (Ideal.exp (shifted (row y r) c)) s) (Finset.sum_congr rfl fun l _ => ?_)
  rw [exp_apply, shiftBody_apply]

/-- The softmax of every row, as the host spells it: the exponential of the shifted array over its host sum along the
    row, the sum put back beside the rows by two broadcasts. -/
theorem softmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    Host.divf (Host.exp (shiftHost y hR' hu h0 hcol hrow))
      (broadcastInDim (⟨2, ![n, k]⟩ : Shape) (![0, 1] : Fin 2 → Fin 2) hrow
        (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu)))
      = GraphNet.softmax y := by
  refine eq_rowMap _ _ _ fun r c => ?_
  show Ideal.div (Host.exp (shiftHost y hR' hu h0 hcol hrow) (ix2 r c)) _ = _
  rw [hostExp_apply, shiftHost_apply y hR' hR hu h0 hcol hrow r c, col_host_apply, rowSum_host _ hR' hR hu r]
  show _ = Ideal.div (Ideal.exp (shifted (row y r) c)) (∑ l : Fin k, Ideal.exp (shifted (row y r) l))
  refine congrArg (fun s => Ideal.div (Ideal.exp (shifted (row y r) c)) s) (Finset.sum_congr rfl fun l _ => ?_)
  rw [hostExp_apply, shiftHost_apply y hR' hR hu h0 hcol hrow r l]

end GcnOps

end
-- ==== Proof.Classifier.lean ====
/-
  The classifier launch of the kernel, read as the network's classifier.

  The third launch runs its body once, on whole arrays: every window's block is its whole array.  The body multiplies
  by each weight matrix on the matrix unit (the operands narrowed, which changes nothing on extended reals, onto a zero
  accumulator), adds the bias row and takes the maximum with zero four times, multiplies and adds the bias row a fifth
  time, and takes the softmax of every row.  So what the body leaves in the output window's buffer is "GraphNet.mlp"
  of the eleven input blocks ("out2_11_eq"); and, the one block being the whole array, the output array after the
  launch is "GraphNet.mlp" of the eleven input arrays as the launch finds them ("classifier_final").
-/
import proofs.«170102_j71322226918055_2_alg».proof.Proof.Gen.KernelIdeal.Frame
import proofs.«170102_j71322226918055_2_alg».proof.Proof.LibSoftmax
import Idealize.ShloMosaic.Lib.Pipeline.Value

noncomputable section

namespace Cert.KernelIdeal.ClassifierValue

open Cert.KernelIdeal Cert.KernelIdeal.Gen
open Idealize.ShloMosaic Idealize.ShloMosaic.ValueIdx Idealize.ShloMosaic.TcCoe Idealize.SL.Sem
open Idealize.ShloMosaic.Pipeline (Dat)
open GcnSpec GcnOps

/-- The two zero offsets of a whole-array access, as a constant function. -/
theorem hz : (![0, 0] : Fin 2 → Nat) = fun _ => 0 := funext fun a => by fin_cases a <;> rfl

/-! ## The five matrix products

Each contracts the columns of its left operand against the rows of its right one: the left operand is read at
(row of the result, contracted coordinate), the right one at (contracted coordinate, column of the result). -/

/-! ### Product 1: an 64x64 array times an 64x512 array -/

theorem d1_l0 (i : S64x512.Idx) (q : dot_S64x64_S64x512_S64x512_1_0_0_1_n_n.contr.Idx) :
    (dot_S64x64_S64x512_S64x512_1_0_0_1_n_n.lhsIdx i q 0).val = (i 0).val := by
  unfold DotDims.lhsIdx
  rw [dif_neg (show ¬(0 : Fin S64x64.rank) ∈ dot_S64x64_S64x512_S64x512_1_0_0_1_n_n.lhsBatch by decide), dif_pos (show (0 : Fin S64x64.rank) ∈ dot_S64x64_S64x512_S64x512_1_0_0_1_n_n.lhsNonContracting by decide)]
  rfl
theorem d1_l1 (i : S64x512.Idx) (q : dot_S64x64_S64x512_S64x512_1_0_0_1_n_n.contr.Idx) :
    (dot_S64x64_S64x512_S64x512_1_0_0_1_n_n.lhsIdx i q 1).val = (q ⟨0, by decide⟩).val :=
  dot_S64x64_S64x512_S64x512_1_0_0_1_n_n.lhsIdx_val_of_single rfl i q
theorem d1_r0 (i : S64x512.Idx) (q : dot_S64x64_S64x512_S64x512_1_0_0_1_n_n.contr.Idx) :
    (dot_S64x64_S64x512_S64x512_1_0_0_1_n_n.rhsIdx i q 0).val = (q ⟨0, by decide⟩).val :=
  dot_S64x64_S64x512_S64x512_1_0_0_1_n_n.rhsIdx_val_of_single rfl i q
theorem d1_r1 (i : S64x512.Idx) (q : dot_S64x64_S64x512_S64x512_1_0_0_1_n_n.contr.Idx) :
    (dot_S64x64_S64x512_S64x512_1_0_0_1_n_n.rhsIdx i q 1).val = (i 1).val := by
  unfold DotDims.rhsIdx
  rw [dif_neg (show ¬(1 : Fin S64x512.rank) ∈ dot_S64x64_S64x512_S64x512_1_0_0_1_n_n.rhsBatch by decide), dif_pos (show (1 : Fin S64x512.rank) ∈ dot_S64x64_S64x512_S64x512_1_0_0_1_n_n.rhsNonContracting by decide)]
  rfl

/-- The matrix unit's product 1 of the narrowed operands onto the zero accumulator is the linear layer: narrowing is
    the identity on extended reals. -/
theorem mm1 (a : FVec Ideal S64x64 .f32) (w : FVec Ideal S64x512 .f32) :
    matmul dot_S64x64_S64x512_S64x512_1_0_0_1_n_n none (truncf .bf16 a bitsLt_bf16_f32) (truncf .bf16 w bitsLt_bf16_f32)
        (constant S64x512 .f32 0x00000000#32) = lin a w :=
  matmul_zero_eq_lin dot_S64x64_S64x512_S64x512_1_0_0_1_n_n none rfl rfl d1_l0 d1_l1 d1_r0 d1_r1
    (truncf .bf16 a bitsLt_bf16_f32) (truncf .bf16 w bitsLt_bf16_f32)

/-! ### Product 2: an 64x512 array times an 512x1024 array -/

theorem d2_l0 (i : S64x1024.Idx) (q : dot_S64x512_S512x1024_S64x1024_1_0_0_1_n_n.contr.Idx) :
    (dot_S64x512_S512x1024_S64x1024_1_0_0_1_n_n.lhsIdx i q 0).val = (i 0).val := by
  unfold DotDims.lhsIdx
  rw [dif_neg (show ¬(0 : Fin S64x512.rank) ∈ dot_S64x512_S512x1024_S64x1024_1_0_0_1_n_n.lhsBatch by decide), dif_pos (show (0 : Fin S64x512.rank) ∈ dot_S64x512_S512x1024_S64x1024_1_0_0_1_n_n.lhsNonContracting by decide)]
  rfl
theorem d2_l1 (i : S64x1024.Idx) (q : dot_S64x512_S512x1024_S64x1024_1_0_0_1_n_n.contr.Idx) :
    (dot_S64x512_S512x1024_S64x1024_1_0_0_1_n_n.lhsIdx i q 1).val = (q ⟨0, by decide⟩).val :=
  dot_S64x512_S512x1024_S64x1024_1_0_0_1_n_n.lhsIdx_val_of_single rfl i q
theorem d2_r0 (i : S64x1024.Idx) (q : dot_S64x512_S512x1024_S64x1024_1_0_0_1_n_n.contr.Idx) :
    (dot_S64x512_S512x1024_S64x1024_1_0_0_1_n_n.rhsIdx i q 0).val = (q ⟨0, by decide⟩).val :=
  dot_S64x512_S512x1024_S64x1024_1_0_0_1_n_n.rhsIdx_val_of_single rfl i q
theorem d2_r1 (i : S64x1024.Idx) (q : dot_S64x512_S512x1024_S64x1024_1_0_0_1_n_n.contr.Idx) :
    (dot_S64x512_S512x1024_S64x1024_1_0_0_1_n_n.rhsIdx i q 1).val = (i 1).val := by
  unfold DotDims.rhsIdx
  rw [dif_neg (show ¬(1 : Fin S512x1024.rank) ∈ dot_S64x512_S512x1024_S64x1024_1_0_0_1_n_n.rhsBatch by decide), dif_pos (show (1 : Fin S512x1024.rank) ∈ dot_S64x512_S512x1024_S64x1024_1_0_0_1_n_n.rhsNonContracting by decide)]
  rfl

/-- The matrix unit's product 2 of the narrowed operands onto the zero accumulator is the linear layer: narrowing is
    the identity on extended reals. -/
theorem mm2 (a : FVec Ideal S64x512 .f32) (w : FVec Ideal S512x1024 .f32) :
    matmul dot_S64x512_S512x1024_S64x1024_1_0_0_1_n_n none (truncf .bf16 a bitsLt_bf16_f32) (truncf .bf16 w bitsLt_bf16_f32)
        (constant S64x1024 .f32 0x00000000#32) = lin a w :=
  matmul_zero_eq_lin dot_S64x512_S512x1024_S64x1024_1_0_0_1_n_n none rfl rfl d2_l0 d2_l1 d2_r0 d2_r1
    (truncf .bf16 a bitsLt_bf16_f32) (truncf .bf16 w bitsLt_bf16_f32)

/-! ### Product 3: an 64x1024 array times an 1024x1024 array -/

theorem d3_l0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
theorem d3_l1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
theorem d3_r0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
theorem d3_r1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- The matrix unit's product 3 of the narrowed operands onto the zero accumulator is the linear layer: narrowing is
    the identity on extended reals. -/
theorem mm3 (a : FVec Ideal S64x1024 .f32) (w : FVec Ideal S1024x1024 .f32) :
    matmul dot_S64x1024_S1024x1024_S64x1024_1_0_0_1_n_n none (truncf .bf16 a bitsLt_bf16_f32) (truncf .bf16 w bitsLt_bf16_f32)
        (constant S64x1024 .f32 0x00000000#32) = lin a w :=
  matmul_zero_eq_lin dot_S64x1024_S1024x1024_S64x1024_1_0_0_1_n_n none rfl rfl d3_l0 d3_l1 d3_r0 d3_r1
    (truncf .bf16 a bitsLt_bf16_f32) (truncf .bf16 w bitsLt_bf16_f32)

/-! ### Product 4: an 64x1024 array times an 1024x512 array -/

theorem d4_l0 (i : S64x512.Idx) (q : dot_S64x1024_S1024x512_S64x512_1_0_0_1_n_n.contr.Idx) :
    (dot_S64x1024_S1024x512_S64x512_1_0_0_1_n_n.lhsIdx i q 0).val = (i 0).val := by
  unfold DotDims.lhsIdx
  rw [dif_neg (show ¬(0 : Fin S64x1024.rank) ∈ dot_S64x1024_S1024x512_S64x512_1_0_0_1_n_n.lhsBatch by decide), dif_pos (show (0 : Fin S64x1024.rank) ∈ dot_S64x1024_S1024x512_S64x512_1_0_0_1_n_n.lhsNonContracting by decide)]
  rfl
theorem d4_l1 (i : S64x512.Idx) (q : dot_S64x1024_S1024x512_S64x512_1_0_0_1_n_n.contr.Idx) :
    (dot_S64x1024_S1024x512_S64x512_1_0_0_1_n_n.lhsIdx i q 1).val = (q ⟨0, by decide⟩).val :=
  dot_S64x1024_S1024x512_S64x512_1_0_0_1_n_n.lhsIdx_val_of_single rfl i q
theorem d4_r0 (i : S64x512.Idx) (q : dot_S64x1024_S1024x512_S64x512_1_0_0_1_n_n.contr.Idx) :
    (dot_S64x1024_S1024x512_S64x512_1_0_0_1_n_n.rhsIdx i q 0).val = (q ⟨0, by decide⟩).val :=
  dot_S64x1024_S1024x512_S64x512_1_0_0_1_n_n.rhsIdx_val_of_single rfl i q
theorem d4_r1 (i : S64x512.Idx) (q : dot_S64x1024_S1024x512_S64x512_1_0_0_1_n_n.contr.Idx) :
    (dot_S64x1024_S1024x512_S64x512_1_0_0_1_n_n.rhsIdx i q 1).val = (i 1).val := by
  unfold DotDims.rhsIdx
  rw [dif_neg (show ¬(1 : Fin S1024x512.rank) ∈ dot_S64x1024_S1024x512_S64x512_1_0_0_1_n_n.rhsBatch by decide), dif_pos (show (1 : Fin S1024x512.rank) ∈ dot_S64x1024_S1024x512_S64x512_1_0_0_1_n_n.rhsNonContracting by decide)]
  rfl

/-- The matrix unit's product 4 of the narrowed operands onto the zero accumulator is the linear layer: narrowing is
    the identity on extended reals. -/
theorem mm4 (a : FVec Ideal S64x1024 .f32) (w : FVec Ideal S1024x512 .f32) :
    matmul dot_S64x1024_S1024x512_S64x512_1_0_0_1_n_n none (truncf .bf16 a bitsLt_bf16_f32) (truncf .bf16 w bitsLt_bf16_f32)
        (constant S64x512 .f32 0x00000000#32) = lin a w :=
  matmul_zero_eq_lin dot_S64x1024_S1024x512_S64x512_1_0_0_1_n_n none rfl rfl d4_l0 d4_l1 d4_r0 d4_r1
    (truncf .bf16 a bitsLt_bf16_f32) (truncf .bf16 w bitsLt_bf16_f32)

/-! ### Product 5: an 64x512 array times an 512x10 array -/

theorem d5_l0 (i : S64x10.Idx) (q : dot_S64x512_S512x10_S64x10_1_0_0_1_n_n.contr.Idx) :
    (dot_S64x512_S512x10_S64x10_1_0_0_1_n_n.lhsIdx i q 0).val = (i 0).val := by
  unfold DotDims.lhsIdx
  rw [dif_neg (show ¬(0 : Fin S64x512.rank) ∈ dot_S64x512_S512x10_S64x10_1_0_0_1_n_n.lhsBatch by decide), dif_pos (show (0 : Fin S64x512.rank) ∈ dot_S64x512_S512x10_S64x10_1_0_0_1_n_n.lhsNonContracting by decide)]
  rfl
theorem d5_l1 (i : S64x10.Idx) (q : dot_S64x512_S512x10_S64x10_1_0_0_1_n_n.contr.Idx) :
    (dot_S64x512_S512x10_S64x10_1_0_0_1_n_n.lhsIdx i q 1).val = (q ⟨0, by decide⟩).val :=
  dot_S64x512_S512x10_S64x10_1_0_0_1_n_n.lhsIdx_val_of_single rfl i q
theorem d5_r0 (i : S64x10.Idx) (q : dot_S64x512_S512x10_S64x10_1_0_0_1_n_n.contr.Idx) :
    (dot_S64x512_S512x10_S64x10_1_0_0_1_n_n.rhsIdx i q 0).val = (q ⟨0, by decide⟩).val :=
  dot_S64x512_S512x10_S64x10_1_0_0_1_n_n.rhsIdx_val_of_single rfl i q
theorem d5_r1 (i : S64x10.Idx) (q : dot_S64x512_S512x10_S64x10_1_0_0_1_n_n.contr.Idx) :
    (dot_S64x512_S512x10_S64x10_1_0_0_1_n_n.rhsIdx i q 1).val = (i 1).val := by
  unfold DotDims.rhsIdx
  rw [dif_neg (show ¬(1 : Fin S512x10.rank) ∈ dot_S64x512_S512x10_S64x10_1_0_0_1_n_n.rhsBatch by decide), dif_pos (show (1 : Fin S512x10.rank) ∈ dot_S64x512_S512x10_S64x10_1_0_0_1_n_n.rhsNonContracting by decide)]
  rfl

/-- The matrix unit's product 5 of the narrowed operands onto the zero accumulator is the linear layer: narrowing is
    the identity on extended reals. -/
theorem mm5 (a : FVec Ideal S64x512 .f32) (w : FVec Ideal S512x10 .f32) :
    matmul dot_S64x512_S512x10_S64x10_1_0_0_1_n_n none (truncf .bf16 a bitsLt_bf16_f32) (truncf .bf16 w bitsLt_bf16_f32)
        (constant S64x10 .f32 0x00000000#32) = lin a w :=
  matmul_zero_eq_lin dot_S64x512_S512x10_S64x10_1_0_0_1_n_n none rfl rfl d5_l0 d5_l1 d5_r0 d5_r1
    (truncf .bf16 a bitsLt_bf16_f32) (truncf .bf16 w bitsLt_bf16_f32)

/-! ## The five layers -/

/-- Layer 1 as the body spells it: product 1, the bias row broadcast over the rows and added, the maximum with zero. -/
theorem layer1 (a : FVec Ideal S64x64 .f32) (w : FVec Ideal S64x512 .f32) (b : FVec Ideal S1x512 .f32) :
    maximumf (addf (matmul dot_S64x64_S64x512_S64x512_1_0_0_1_n_n none (truncf .bf16 a bitsLt_bf16_f32) (truncf .bf16 w bitsLt_bf16_f32)
          (constant S64x512 .f32 0x00000000#32))
        (broadcastTo S64x512 (shapeCast S1x512 b shapeCasts_S1x512_S1x512) broadcasts_S1x512_S64x512))
      (broadcast S64x512 (Scalar.ofBits (F := Ideal) .f32 0x00000000#32)) = relu (lin a w) b := by
  rw [mm1]
  exact relu_body_plain _ _ _ _

/-- Layer 2 as the body spells it: product 2, the bias row broadcast over the rows and added, the maximum with zero. -/
theorem layer2 (a : FVec Ideal S64x512 .f32) (w : FVec Ideal S512x1024 .f32) (b : FVec Ideal S1x1024 .f32) :
    maximumf (addf (matmul dot_S64x512_S512x1024_S64x1024_1_0_0_1_n_n none (truncf .bf16 a bitsLt_bf16_f32) (truncf .bf16 w bitsLt_bf16_f32)
          (constant S64x1024 .f32 0x00000000#32))
        (broadcastTo S64x1024 (shapeCast S1x1024 b shapeCasts_S1x1024_S1x1024) broadcasts_S1x1024_S64x1024))
      (broadcast S64x1024 (Scalar.ofBits (F := Ideal) .f32 0x00000000#32)) = relu (lin a w) b := by
  rw [mm2]
  exact relu_body_plain _ _ _ _

/-- Layer 3 as the body spells it: product 3, the bias row broadcast over the rows and added, the maximum with zero. -/
theorem layer3 (a : FVec Ideal S64x1024 .f32) (w : FVec Ideal S1024x1024 .f32) (b : FVec Ideal S1x1024 .f32) :
    maximumf (addf (matmul dot_S64x1024_S1024x1024_S64x1024_1_0_0_1_n_n none (truncf .bf16 a bitsLt_bf16_f32) (truncf .bf16 w bitsLt_bf16_f32)
          (constant S64x1024 .f32 0x00000000#32))
        (broadcastTo S64x1024 (shapeCast S1x1024 b shapeCasts_S1x1024_S1x1024) broadcasts_S1x1024_S64x1024))
      (broadcast S64x1024 (Scalar.ofBits (F := Ideal) .f32 0x00000000#32)) = relu (lin a w) b := by
  rw [mm3]
  exact relu_body_plain _ _ _ _

/-- Layer 4 as the body spells it: product 4, the bias row broadcast over the rows and added, the maximum with zero. -/
theorem layer4 (a : FVec Ideal S64x1024 .f32) (w : FVec Ideal S1024x512 .f32) (b : FVec Ideal S1x512 .f32) :
    maximumf (addf (matmul dot_S64x1024_S1024x512_S64x512_1_0_0_1_n_n none (truncf .bf16 a bitsLt_bf16_f32) (truncf .bf16 w bitsLt_bf16_f32)
          (constant S64x512 .f32 0x00000000#32))
        (broadcastTo S64x512 (shapeCast S1x512 b shapeCasts_S1x512_S1x512) broadcasts_S1x512_S64x512))
      (broadcast S64x512 (Scalar.ofBits (F := Ideal) .f32 0x00000000#32)) = relu (lin a w) b := by
  rw [mm4]
  exact relu_body_plain _ _ _ _

/-- Layer 5 as the body spells it: product 5, the bias row broadcast over the rows and added. -/
theorem layer5 (a : FVec Ideal S64x512 .f32) (w : FVec Ideal S512x10 .f32) (b : FVec Ideal S1x10 .f32) :
    addf (matmul dot_S64x512_S512x10_S64x10_1_0_0_1_n_n none (truncf .bf16 a bitsLt_bf16_f32) (truncf .bf16 w bitsLt_bf16_f32)
          (constant S64x10 .f32 0x00000000#32))
        (broadcastTo S64x10 (shapeCast S1x10 b shapeCasts_S1x10_S1x10) broadcasts_S1x10_S64x10) = GraphNet.bias (lin a w) b := by
  rw [mm5]
  exact bias_body _ _ _ _

/-! ## The body's payloads -/

/-- The first three layers: the payload the body carries from its first part. -/
theorem k2_pay2_eq (x0 : Vec Ideal S64x64 .f32) (x1 : Vec Ideal S64x512 .f32) (x2 : Vec Ideal S1x512 .f32)
    (x3 : Vec Ideal S512x1024 .f32) (x4 : Vec Ideal S1x1024 .f32) (x5 : Vec Ideal S1024x1024 .f32)
    (x6 : Vec Ideal S1x1024 .f32) :
    k2_pay2 (F := Ideal) x0 x1 x2 x3 x4 x5 x6 = relu (lin (relu (lin (relu (lin x0 x1) x2) x3) x4) x5) x6 := by
  calc k2_pay2 (F := Ideal) x0 x1 x2 x3 x4 x5 x6
      = relu (lin (relu (lin (relu (lin (shapeCast S64x64 x0 shapeCasts_S64x64_S64x64) x1) x2) x3) x4) x5) x6 := by
        rw [← layer3 (relu (lin (relu (lin (shapeCast S64x64 x0 shapeCasts_S64x64_S64x64) x1) x2) x3) x4) x5 x6,
          ← layer2 (relu (lin (shapeCast S64x64 x0 shapeCasts_S64x64_S64x64) x1) x2) x3 x4,
          ← layer1 (shapeCast S64x64 x0 shapeCasts_S64x64_S64x64) x1 x2]
        rfl
    _ = _ := by rw [shapeCast_self]

/-- The last two layers and the softmax: the payload the body stores, from the carried block. -/
theorem k2_pay1_eq (v : FVec Ideal S64x1024 .f32) (x7 : Vec Ideal S1024x512 .f32) (x8 : Vec Ideal S1x512 .f32)
    (x9 : Vec Ideal S512x10 .f32) (x10 : Vec Ideal S1x10 .f32) :
    k2_pay1 (F := Ideal) v x7 (k2_pay3 x8) x9 x10
      = GraphNet.softmax (GraphNet.bias (lin (relu (lin v x7) x8) x9) x10) := by
  rw [← softmax_body (GraphNet.bias (lin (relu (lin v x7) x8) x9) x10) reduces_S64x10_S64 (.inl rfl) rfl rfl
      shapeCasts_S64_S64x1 broadcasts_S64x1_S64x10,
    ← layer5 (relu (lin v x7) x8) x9 x10, ← layer4 v x7 x8]
  rfl

/-- What the body leaves in the output window's buffer is the classifier of the eleven input blocks. -/
theorem out2_11_eq (x0 : Vec Ideal S64x64 .f32) (x1 : Vec Ideal S64x512 .f32) (x2 : Vec Ideal S1x512 .f32)
    (x3 : Vec Ideal S512x1024 .f32) (x4 : Vec Ideal S1x1024 .f32) (x5 : Vec Ideal S1024x1024 .f32)
    (x6 : Vec Ideal S1x1024 .f32) (x7 : Vec Ideal S1024x512 .f32) (x8 : Vec Ideal S1x512 .f32)
    (x9 : Vec Ideal S512x10 .f32) (x10 : Vec Ideal S1x10 .f32) :
    out2_11 (F := Ideal) x0 x1 x2 x3 x4 x5 x6 x7 x8 x9 x10 = GraphNet.mlp x0 x1 x2 x3 x4 x5 x6 x7 x8 x9 x10 := by
  unfold out2_11
  rw [View.canon_unit_zero hz]
  simp only [View.ld_unit_zero (S := S64x64) hz,
    View.ld_unit_zero (S := S64x512) hz,
    View.ld_unit_zero (S := S1x512) hz,
    View.ld_unit_zero (S := S512x1024) hz,
    View.ld_unit_zero (S := S1x1024) hz,
    View.ld_unit_zero (S := S1024x1024) hz,
    View.ld_unit_zero (S := S1024x512) hz,
    View.ld_unit_zero (S := S512x10) hz,
    View.ld_unit_zero (S := S1x10) hz]
  rw [k2_pay2_eq, k2_pay1_eq]
  rfl

/-! ## The launch: one point, whole arrays -/

/-- Every window's block index is zero on both axes at every point of the grid (decided over its one point). -/
theorem idx_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0 :=
  (by decide +kernel : ∀ t : Fin grid2.N, _)

variable (V : (c : Dev nD) → (b : Ref sig .tc) → Buf (Elt Ideal) ((c : Thread nD τ).loc b))

/-- Input window 0's block is its whole array. -/
theorem iblk2_0_eq (c : Dev nD) (t : Fin cfg2.N) : iblk2 V c 0 t = V c main_v56 := by
  funext j
  show V c main_v56 (((cfg2.win 0).blk t).view.emb j) = V c main_v56 j
  refine congrArg (V c main_v56) (funext fun a => Fin.ext ?_)
  have h := idx_zero t
  match a with
  | ⟨0, _⟩ => show win2_0.index t (0 : Fin 2) * 64 + 1 * (j 0).val = (j 0).val; omega
  | ⟨1, _⟩ => show win2_0.index t (1 : Fin 2) * 64 + 1 * (j 1).val = (j 1).val; omega

/-- Input window 1's block is its whole array. -/
theorem iblk2_1_eq (c : Dev nD) (t : Fin cfg2.N) : iblk2 V c 1 t = V c main_arg7 := by
  funext j
  show V c main_arg7 (((cfg2.win 1).blk t).view.emb j) = V c main_arg7 j
  refine congrArg (V c main_arg7) (funext fun a => Fin.ext ?_)
  have h := idx_zero t
  match a with
  | ⟨0, _⟩ => show win2_1.index t (0 : Fin 2) * 64 + 1 * (j 0).val = (j 0).val; omega
  | ⟨1, _⟩ => show win2_1.index t (1 : Fin 2) * 512 + 1 * (j 1).val = (j 1).val; omega

/-- Input window 2's block is its whole array. -/
theorem iblk2_2_eq (c : Dev nD) (t : Fin cfg2.N) : iblk2 V c 2 t = V c main_v57 := by
  funext j
  show V c main_v57 (((cfg2.win 2).blk t).view.emb j) = V c main_v57 j
  refine congrArg (V c main_v57) (funext fun a => Fin.ext ?_)
  have h := idx_zero t
  match a with
  | ⟨0, _⟩ => show win2_2.index t (0 : Fin 2) * 1 + 1 * (j 0).val = (j 0).val; omega
  | ⟨1, _⟩ => show win2_2.index t (1 : Fin 2) * 512 + 1 * (j 1).val = (j 1).val; omega

/-- Input window 3's block is its whole array. -/
theorem iblk2_3_eq (c : Dev nD) (t : Fin cfg2.N) : iblk2 V c 3 t = V c main_arg9 := by
  funext j
  show V c main_arg9 (((cfg2.win 3).blk t).view.emb j) = V c main_arg9 j
  refine congrArg (V c main_arg9) (funext fun a => Fin.ext ?_)
  have h := idx_zero t
  match a with
  | ⟨0, _⟩ => show win2_3.index t (0 : Fin 2) * 512 + 1 * (j 0).val = (j 0).val; omega
  | ⟨1, _⟩ => show win2_3.index t (1 : Fin 2) * 1024 + 1 * (j 1).val = (j 1).val; omega

/-- Input window 4's block is its whole array. -/
theorem iblk2_4_eq (c : Dev nD) (t : Fin cfg2.N) : iblk2 V c 4 t = V c main_v58 := by
  funext j
  show V c main_v58 (((cfg2.win 4).blk t).view.emb j) = V c main_v58 j
  refine congrArg (V c main_v58) (funext fun a => Fin.ext ?_)
  have h := idx_zero t
  match a with
  | ⟨0, _⟩ => show win2_4.index t (0 : Fin 2) * 1 + 1 * (j 0).val = (j 0).val; omega
  | ⟨1, _⟩ => show win2_4.index t (1 : Fin 2) * 1024 + 1 * (j 1).val = (j 1).val; omega

/-- Input window 5's block is its whole array. -/
theorem iblk2_5_eq (c : Dev nD) (t : Fin cfg2.N) : iblk2 V c 5 t = V c main_arg11 := by
  funext j
  show V c main_arg11 (((cfg2.win 5).blk t).view.emb j) = V c main_arg11 j
  refine congrArg (V c main_arg11) (funext fun a => Fin.ext ?_)
  have h := idx_zero t
  match a with
  | ⟨0, _⟩ => show win2_5.index t (0 : Fin 2) * 1024 + 1 * (j 0).val = (j 0).val; omega
  | ⟨1, _⟩ => show win2_5.index t (1 : Fin 2) * 1024 + 1 * (j 1).val = (j 1).val; omega

/-- Input window 6's block is its whole array. -/
theorem iblk2_6_eq (c : Dev nD) (t : Fin cfg2.N) : iblk2 V c 6 t = V c main_v59 := by
  funext j
  show V c main_v59 (((cfg2.win 6).blk t).view.emb j) = V c main_v59 j
  refine congrArg (V c main_v59) (funext fun a => Fin.ext ?_)
  have h := idx_zero t
  match a with
  | ⟨0, _⟩ => show win2_6.index t (0 : Fin 2) * 1 + 1 * (j 0).val = (j 0).val; omega
  | ⟨1, _⟩ => show win2_6.index t (1 : Fin 2) * 1024 + 1 * (j 1).val = (j 1).val; omega

/-- Input window 7's block is its whole array. -/
theorem iblk2_7_eq (c : Dev nD) (t : Fin cfg2.N) : iblk2 V c 7 t = V c main_arg13 := by
  funext j
  show V c main_arg13 (((cfg2.win 7).blk t).view.emb j) = V c main_arg13 j
  refine congrArg (V c main_arg13) (funext fun a => Fin.ext ?_)
  have h := idx_zero t
  match a with
  | ⟨0, _⟩ => show win2_7.index t (0 : Fin 2) * 1024 + 1 * (j 0).val = (j 0).val; omega
  | ⟨1, _⟩ => show win2_7.index t (1 : Fin 2) * 512 + 1 * (j 1).val = (j 1).val; omega

/-- Input window 8's block is its whole array. -/
theorem iblk2_8_eq (c : Dev nD) (t : Fin cfg2.N) : iblk2 V c 8 t = V c main_v60 := by
  funext j
  show V c main_v60 (((cfg2.win 8).blk t).view.emb j) = V c main_v60 j
  refine congrArg (V c main_v60) (funext fun a => Fin.ext ?_)
  have h := idx_zero t
  match a with
  | ⟨0, _⟩ => show win2_8.index t (0 : Fin 2) * 1 + 1 * (j 0).val = (j 0).val; omega
  | ⟨1, _⟩ => show win2_8.index t (1 : Fin 2) * 512 + 1 * (j 1).val = (j 1).val; omega

/-- Input window 9's block is its whole array. -/
theorem iblk2_9_eq (c : Dev nD) (t : Fin cfg2.N) : iblk2 V c 9 t = V c main_arg15 := by
  funext j
  show V c main_arg15 (((cfg2.win 9).blk t).view.emb j) = V c main_arg15 j
  refine congrArg (V c main_arg15) (funext fun a => Fin.ext ?_)
  have h := idx_zero t
  match a with
  | ⟨0, _⟩ => show win2_9.index t (0 : Fin 2) * 512 + 1 * (j 0).val = (j 0).val; omega
  | ⟨1, _⟩ => show win2_9.index t (1 : Fin 2) * 10 + 1 * (j 1).val = (j 1).val; omega

/-- Input window 10's block is its whole array. -/
theorem iblk2_10_eq (c : Dev nD) (t : Fin cfg2.N) : iblk2 V c 10 t = V c main_v61 := by
  funext j
  show V c main_v61 (((cfg2.win 10).blk t).view.emb j) = V c main_v61 j
  refine congrArg (V c main_v61) (funext fun a => Fin.ext ?_)
  have h := idx_zero t
  match a with
  | ⟨0, _⟩ => show win2_10.index t (0 : Fin 2) * 1 + 1 * (j 0).val = (j 0).val; omega
  | ⟨1, _⟩ => show win2_10.index t (1 : Fin 2) * 10 + 1 * (j 1).val = (j 1).val; omega

/-- An index of the output array is in the block of every point: the block is the whole array. -/
theorem mem_blk2_11 (t : Fin cfg2.N) (i : S64x10.Idx) : i ∈ ((cfg2.win 11).blk t).view.set := by
  show i ∈ ((View.whole main_v62).slice (win2_11.rect t)).set
  rw [View.set_slice_whole, Rect.mem_set_unit]
  have h := idx_zero t
  intro a
  match a with
  | ⟨0, _⟩ =>
    show win2_11.index t (0 : Fin 2) * 64 ≤ (i 0).val ∧ (i 0).val < win2_11.index t (0 : Fin 2) * 64 + 64
    have hi : (i 0).val < 64 := (i 0).isLt; omega
  | ⟨1, _⟩ =>
    show win2_11.index t (1 : Fin 2) * 10 ≤ (i 1).val ∧ (i 1).val < win2_11.index t (1 : Fin 2) * 10 + 10
    have hi : (i 1).val < 10 := (i 1).isLt; omega

/-- THE OUTPUT ARRAY AFTER THE LAUNCH is the classifier of the eleven input arrays as the launch finds them. -/
theorem classifier_final (c : Dev nD) :
    (dat2 (F := Ideal) V c).arrAt 11 cfg2.N
      = GraphNet.mlp (V c main_v56) (V c main_arg7) (V c main_v57) (V c main_arg9) (V c main_v58) (V c main_arg11)
          (V c main_v59) (V c main_arg13) (V c main_v60) (V c main_arg15) (V c main_v61) := by
  refine (dat2 (F := Ideal) V c).arrAt_eq_of_cover 11 _ (fun t _ => ?_) (fun i => ⟨t2_0, flush2_11 t2_0, mem_blk2_11 t2_0 i⟩)
  show (cfg2.win 11).cut (grid2.coords t) ((dat2 (F := Ideal) V c).after 11 t) = _
  rw [after2_11, out2_11_eq, iblk2_0_eq, iblk2_1_eq, iblk2_2_eq, iblk2_3_eq, iblk2_4_eq, iblk2_5_eq, iblk2_6_eq, iblk2_7_eq, iblk2_8_eq, iblk2_9_eq, iblk2_10_eq]
  funext j
  show GraphNet.mlp (V c main_v56) (V c main_arg7) (V c main_v57) (V c main_arg9) (V c main_v58) (V c main_arg11)
      (V c main_v59) (V c main_arg13) (V c main_v60) (V c main_arg15) (V c main_v61) ((cfg2.win 11).xinj (grid2.coords t) j)
    = GraphNet.mlp (V c main_v56) (V c main_arg7) (V c main_v57) (V c main_arg9) (V c main_v58) (V c main_arg11)
      (V c main_v59) (V c main_arg13) (V c main_v60) (V c main_arg15) (V c main_v61) (((cfg2.win 11).blk t).view.emb j)
  refine congrArg _ (funext fun a => Fin.ext ?_)
  have h := idx_zero t
  match a with
  | ⟨0, _⟩ => show (j 0).val = win2_11.index t (0 : Fin 2) * 64 + 1 * (j 0).val; omega
  | ⟨1, _⟩ => show (j 1).val = win2_11.index t (1 : Fin 2) * 10 + 1 * (j 1).val; omega

end Cert.KernelIdeal.ClassifierValue

end
-- ==== Proof.RefConv.lean ====
/-
  The reference's two graph-convolution stages are the network's two graph-convolution layers.

  Read entry by entry: the host's contraction is the sum over the contracted coordinate of the left entry times the
  right entry; the broadcast of the normalisation vector to one column and then along the row is that vector's column
  view read in the same row; the broadcast of the bias vector to one row and then down the rows is its row view read in
  the same column; the broadcast zero scalar is the float zero.
-/
import proofs.«170102_j71322226918055_2_alg».proof.Proof.Gen.ReferenceIdeal.Read
import proofs.«170102_j71322226918055_2_alg».proof.Proof.GraphNet
import proofs.«170102_j71322226918055_2_alg».proof.Proof.LibRowCol

noncomputable section

open scoped BigOperators

namespace Cert.ReferenceIdeal.RefConv

open Cert.ReferenceIdeal Cert.ReferenceIdeal.Gen Cert.ReferenceIdeal.Read Idealize.ShloMosaic Idealize.ShloMosaic.ValueIdx

/-- The first graph-convolution stage of the reference is the first layer of the network. -/
theorem ref_conv1 (x0 x1 : (⟨S3200000, .i32⟩ : BufTy).Contents (Elt Ideal)) (x3 : (⟨S1x64, .f32⟩ : BufTy).Contents (Elt Ideal))
    (x4 : (⟨S64, .f32⟩ : BufTy).Contents (Elt Ideal)) :
    Read.val_main_v32 (F := Ideal) x0 x1 x3 x4
      = GraphNet.conv1 (n := 100000) (k := 1) (q := 64) (Read.val_main_v25 (F := Ideal) x0 x1)
          (RowCol.colOf (Read.val_main_v12 (F := Ideal) x1)) x3 (RowCol.rowOf x4) := by
  funext i
  obtain ⟨r, c, rfl⟩ : ∃ (r : Fin 100000) (c : Fin 64), i = ix2 r c := ⟨i 0, i 1, eq_ix2 i⟩
  rw [GraphNet.conv1_ix2, val_main_v32_apply, val_main_v31_apply, val_main_v28_apply, val_main_v30_apply,
    val_main_v29_apply, val_main_call0_v0_apply, val_main_call0_cst_apply]
  refine congrArg₂ max (congrArg₂ (· + ·) (Finset.sum_congr rfl fun l _ => ?_) ?_) rfl
  · rw [val_main_v27_apply, val_main_v26_apply]
    have hl : lidx_main_v28 (ix2 r c) l = ix2 r l := funext fun a => by
      match a with | ⟨0, _⟩ => rfl | ⟨1, _⟩ => rfl
    have hr : ridx_main_v28 (ix2 r c) l = ix2 l c := funext fun a => by
      match a with | ⟨0, _⟩ => rfl | ⟨1, _⟩ => rfl
    rw [hl, hr]
    have hs : RowCol.colOf (val_main_v12 (F := Ideal) x1) (ix2 r (0 : Fin 1)) = val_main_v12 (F := Ideal) x1 (idx_main_v26 (ix2 r l)) :=
      RowCol.colOf_eq _ _ _ rfl
    rw [hs]
    rfl
  · exact (RowCol.rowOf_eq x4 (ix2 (0 : Fin 1) c) _ rfl).symm

/-- The second graph-convolution stage of the reference is the second layer of the network. -/
theorem ref_conv2 (x0 x1 : (⟨S3200000, .i32⟩ : BufTy).Contents (Elt Ideal)) (x3 : (⟨S1x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) :
    Read.val_main_v52 (F := Ideal) x0 x1 x3 x4 x5 x6
      = GraphNet.conv2 (n := 100000) (k := 64) (q := 64) (Read.val_main_v45 (F := Ideal) x0 x1 x3 x4)
          (RowCol.colOf (Read.val_main_v12 (F := Ideal) x1)) x5 (RowCol.rowOf x6) := by
  funext i
  obtain ⟨r, c, rfl⟩ : ∃ (r : Fin 100000) (c : Fin 64), i = ix2 r c := ⟨i 0, i 1, eq_ix2 i⟩
  rw [GraphNet.conv2_ix2, val_main_v52_apply, val_main_v49_apply, val_main_v51_apply, val_main_v50_apply]
  refine congrArg₂ (· + ·) (Finset.sum_congr rfl fun l _ => ?_) ?_
  · have hl : lidx_main_v49 (ix2 r c) l = ix2 r l := funext fun a => by
      match a with | ⟨0, _⟩ => rfl | ⟨1, _⟩ => rfl
    have hr : ridx_main_v49 (ix2 r c) l = ix2 l c := funext fun a => by
      match a with | ⟨0, _⟩ => rfl | ⟨1, _⟩ => rfl
    rw [hl, hr, val_main_v48_apply, val_main_v47_apply, val_main_v46_apply]
    have hs : RowCol.colOf (val_main_v12 (F := Ideal) x1) (ix2 r (0 : Fin 1))
        = val_main_v12 (F := Ideal) x1 (idx_main_v46 (idx_main_v47 (ix2 r l))) :=
      RowCol.colOf_eq _ _ _ rfl
    rw [hs]
    rfl
  · exact (RowCol.rowOf_eq x6 (ix2 (0 : Fin 1) c) _ rfl).symm

end Cert.ReferenceIdeal.RefConv

end
-- ==== Proof.RefClassifier.lean ====
/-
  The reference's classifier stages are the network's classifier.

  Layer by layer: the host's contraction is the linear layer; the bias vector broadcast to one row and then down the
  rows, added, is the bias read through the vector's one-row view; the maximum with the broadcast zero scalar makes it
  the layer with the maximum with zero; and the last stages — the row maximum taken once more against minus infinity,
  put back beside the rows and subtracted, the exponential, the row sum put back beside the rows, the quotient — are
  the softmax of every row.
-/
import proofs.«170102_j71322226918055_2_alg».proof.Proof.Gen.ReferenceIdeal.Read
import proofs.«170102_j71322226918055_2_alg».proof.Proof.GraphNet
import proofs.«170102_j71322226918055_2_alg».proof.Proof.LibRowCol
import proofs.«170102_j71322226918055_2_alg».proof.Proof.LibRowOps
import proofs.«170102_j71322226918055_2_alg».proof.Proof.LibSoftmax

noncomputable section

open scoped BigOperators

namespace Cert.ReferenceIdeal.RefClassifier

open Cert.ReferenceIdeal Cert.ReferenceIdeal.Gen Cert.ReferenceIdeal.Read Idealize.ShloMosaic Idealize.ShloMosaic.ValueIdx

/-- The first layer of the classifier: the matrix, the bias, the maximum with zero. -/
theorem v69_eq (x0 : (⟨S3200000, .i32⟩ : BufTy).Contents (Elt Ideal)) (x1 : (⟨S3200000, .i32⟩ : BufTy).Contents (Elt Ideal)) (x2 : (⟨S100000, .i32⟩ : BufTy).Contents (Elt Ideal)) (x3 : (⟨S1x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x512, .f32⟩ : BufTy).Contents (Elt Ideal)) (x8 : (⟨S512, .f32⟩ : BufTy).Contents (Elt Ideal)) :
    val_main_v69 (F := Ideal) x0 x1 x2 x3 x4 x5 x6 x7 x8
      = GcnSpec.relu (GcnSpec.lin (n := 64) (k := 64) (q := 512) (val_main_v64 (F := Ideal) x0 x1 x2 x3 x4 x5 x6) x7) (RowCol.rowOf x8) := by
  unfold val_main_v69 val_main_v68 val_main_v67 val_main_v66 val_main_v65 val_main_call1_v0 val_main_call1_cst
  generalize val_main_v64 (F := Ideal) x0 x1 x2 x3 x4 x5 x6 = y
  exact (GcnOps.relu_host_row (n := 64) (k := 512) _ x8 bcast_S512_S1x512_1 bcast_S1x512_S64x512_0_1 bcast_S_S64x512).trans
    (congrArg (fun a => GcnSpec.relu a (RowCol.rowOf x8))
      (GcnOps.dotGeneral_eq_lin dot_S64x64_S64x512_S64x512_1_0_0_1_n_n none .single rfl rfl
        lhs_main_v65_0 lhs_main_v65_1 rhs_main_v65_0 rhs_main_v65_1 y x7))

/-- The second layer of the classifier: the matrix, the bias, the maximum with zero. -/
theorem v74_eq (x0 : (⟨S3200000, .i32⟩ : BufTy).Contents (Elt Ideal)) (x1 : (⟨S3200000, .i32⟩ : BufTy).Contents (Elt Ideal)) (x2 : (⟨S100000, .i32⟩ : BufTy).Contents (Elt Ideal)) (x3 : (⟨S1x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x512, .f32⟩ : BufTy).Contents (Elt Ideal)) (x8 : (⟨S512, .f32⟩ : BufTy).Contents (Elt Ideal)) (x9 : (⟨S512x1024, .f32⟩ : BufTy).Contents (Elt Ideal)) (x10 : (⟨S1024, .f32⟩ : BufTy).Contents (Elt Ideal)) :
    val_main_v74 (F := Ideal) x0 x1 x2 x3 x4 x5 x6 x7 x8 x9 x10
      = GcnSpec.relu (GcnSpec.lin (n := 64) (k := 512) (q := 1024) (val_main_v69 (F := Ideal) x0 x1 x2 x3 x4 x5 x6 x7 x8) x9) (RowCol.rowOf x10) := by
  unfold val_main_v74 val_main_v73 val_main_v72 val_main_v71 val_main_v70 val_main_call2_v0 val_main_call2_cst
  generalize val_main_v69 (F := Ideal) x0 x1 x2 x3 x4 x5 x6 x7 x8 = y
  exact (GcnOps.relu_host_row (n := 64) (k := 1024) _ x10 bcast_S1024_S1x1024_1 bcast_S1x1024_S64x1024_0_1 bcast_S_S64x1024).trans
    (congrArg (fun a => GcnSpec.relu a (RowCol.rowOf x10))
      (GcnOps.dotGeneral_eq_lin dot_S64x512_S512x1024_S64x1024_1_0_0_1_n_n none .single rfl rfl
        lhs_main_v70_0 lhs_main_v70_1 rhs_main_v70_0 rhs_main_v70_1 y x9))

/-- The third layer of the classifier: the matrix, the bias, the maximum with zero. -/
theorem v79_eq (x0 : (⟨S3200000, .i32⟩ : BufTy).Contents (Elt Ideal)) (x1 : (⟨S3200000, .i32⟩ : BufTy).Contents (Elt Ideal)) (x2 : (⟨S100000, .i32⟩ : BufTy).Contents (Elt Ideal)) (x3 : (⟨S1x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x512, .f32⟩ : BufTy).Contents (Elt Ideal)) (x8 : (⟨S512, .f32⟩ : BufTy).Contents (Elt Ideal)) (x9 : (⟨S512x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) :
    val_main_v79 (F := Ideal) x0 x1 x2 x3 x4 x5 x6 x7 x8 x9 x10 x11 x12
      = GcnSpec.relu (GcnSpec.lin (n := 64) (k := 1024) (q := 1024) (val_main_v74 (F := Ideal) x0 x1 x2 x3 x4 x5 x6 x7 x8 x9 x10) x11) (RowCol.rowOf x12) := by
  unfold val_main_v79 val_main_v78 val_main_v77 val_main_v76 val_main_v75 val_main_call3_v0 val_main_call3_cst
  generalize val_main_v74 (F := Ideal) x0 x1 x2 x3 x4 x5 x6 x7 x8 x9 x10 = y
  exact (GcnOps.relu_host_row (n := 64) (k := 1024) _ x12 bcast_S1024_S1x1024_1 bcast_S1x1024_S64x1024_0_1 bcast_S_S64x1024).trans
    (congrArg (fun a => GcnSpec.relu a (RowCol.rowOf x12))
      (GcnOps.dotGeneral_eq_lin dot_S64x1024_S1024x1024_S64x1024_1_0_0_1_n_n none .single rfl rfl
        lhs_main_v75_0 lhs_main_v75_1 rhs_main_v75_0 rhs_main_v75_1 y x11))

/-- The fourth layer of the classifier: the matrix, the bias, the maximum with zero. -/
theorem v84_eq (x0 : (⟨S3200000, .i32⟩ : BufTy).Contents (Elt Ideal)) (x1 : (⟨S3200000, .i32⟩ : BufTy).Contents (Elt Ideal)) (x2 : (⟨S100000, .i32⟩ : BufTy).Contents (Elt Ideal)) (x3 : (⟨S1x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x512, .f32⟩ : BufTy).Contents (Elt Ideal)) (x8 : (⟨S512, .f32⟩ : BufTy).Contents (Elt Ideal)) (x9 : (⟨S512x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x512, .f32⟩ : BufTy).Contents (Elt Ideal)) (x14 : (⟨S512, .f32⟩ : BufTy).Contents (Elt Ideal)) :
    val_main_v84 (F := Ideal) x0 x1 x2 x3 x4 x5 x6 x7 x8 x9 x10 x11 x12 x13 x14
      = GcnSpec.relu (GcnSpec.lin (n := 64) (k := 1024) (q := 512) (val_main_v79 (F := Ideal) x0 x1 x2 x3 x4 x5 x6 x7 x8 x9 x10 x11 x12) x13) (RowCol.rowOf x14) := by
  unfold val_main_v84 val_main_v83 val_main_v82 val_main_v81 val_main_v80 val_main_call4_v0 val_main_call4_cst
  generalize val_main_v79 (F := Ideal) x0 x1 x2 x3 x4 x5 x6 x7 x8 x9 x10 x11 x12 = y
  exact (GcnOps.relu_host_row (n := 64) (k := 512) _ x14 bcast_S512_S1x512_1 bcast_S1x512_S64x512_0_1 bcast_S_S64x512).trans
    (congrArg (fun a => GcnSpec.relu a (RowCol.rowOf x14))
      (GcnOps.dotGeneral_eq_lin dot_S64x1024_S1024x512_S64x512_1_0_0_1_n_n none .single rfl rfl
        lhs_main_v80_0 lhs_main_v80_1 rhs_main_v80_0 rhs_main_v80_1 y x13))

/-- The fifth layer of the classifier: the matrix and the bias. -/
theorem v88_eq (x0 : (⟨S3200000, .i32⟩ : BufTy).Contents (Elt Ideal)) (x1 : (⟨S3200000, .i32⟩ : BufTy).Contents (Elt Ideal)) (x2 : (⟨S100000, .i32⟩ : BufTy).Contents (Elt Ideal)) (x3 : (⟨S1x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x512, .f32⟩ : BufTy).Contents (Elt Ideal)) (x8 : (⟨S512, .f32⟩ : BufTy).Contents (Elt Ideal)) (x9 : (⟨S512x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x512, .f32⟩ : BufTy).Contents (Elt Ideal)) (x14 : (⟨S512, .f32⟩ : BufTy).Contents (Elt Ideal)) (x15 : (⟨S512x10, .f32⟩ : BufTy).Contents (Elt Ideal)) (x16 : (⟨S10, .f32⟩ : BufTy).Contents (Elt Ideal)) :
    val_main_v88 (F := Ideal) x0 x1 x2 x3 x4 x5 x6 x7 x8 x9 x10 x11 x12 x13 x14 x15 x16
      = GraphNet.bias (GcnSpec.lin (n := 64) (k := 512) (q := 10) (val_main_v84 (F := Ideal) x0 x1 x2 x3 x4 x5 x6 x7 x8 x9 x10 x11 x12 x13 x14) x15) (RowCol.rowOf x16) := by
  unfold val_main_v88 val_main_v87 val_main_v86 val_main_v85
  generalize val_main_v84 (F := Ideal) x0 x1 x2 x3 x4 x5 x6 x7 x8 x9 x10 x11 x12 x13 x14 = y
  exact (GcnOps.bias_host (n := 64) (k := 10) _ x16 bcast_S10_S1x10_1 bcast_S1x10_S64x10_0_1).trans
    (congrArg (fun a => GraphNet.bias a (RowCol.rowOf x16))
      (GcnOps.dotGeneral_eq_lin dot_S64x512_S512x10_S64x10_1_0_0_1_n_n none .single rfl rfl
        lhs_main_v85_0 lhs_main_v85_1 rhs_main_v85_0 rhs_main_v85_1 y x15))

/-- The last stages are the softmax of every row of the fifth layer. -/
theorem v99_eq (x0 : (⟨S3200000, .i32⟩ : BufTy).Contents (Elt Ideal)) (x1 : (⟨S3200000, .i32⟩ : BufTy).Contents (Elt Ideal)) (x2 : (⟨S100000, .i32⟩ : BufTy).Contents (Elt Ideal)) (x3 : (⟨S1x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x512, .f32⟩ : BufTy).Contents (Elt Ideal)) (x8 : (⟨S512, .f32⟩ : BufTy).Contents (Elt Ideal)) (x9 : (⟨S512x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x512, .f32⟩ : BufTy).Contents (Elt Ideal)) (x14 : (⟨S512, .f32⟩ : BufTy).Contents (Elt Ideal)) (x15 : (⟨S512x10, .f32⟩ : BufTy).Contents (Elt Ideal)) (x16 : (⟨S10, .f32⟩ : BufTy).Contents (Elt Ideal)) :
    val_main_v99 (F := Ideal) x0 x1 x2 x3 x4 x5 x6 x7 x8 x9 x10 x11 x12 x13 x14 x15 x16
      = GraphNet.softmax (n := 64) (k := 10) (val_main_v88 (F := Ideal) x0 x1 x2 x3 x4 x5 x6 x7 x8 x9 x10 x11 x12 x13 x14 x15 x16) := by
  unfold val_main_v99 val_main_v98 val_main_v97 val_main_v96 val_main_v95 val_main_v94 val_main_v93 val_main_v92 val_main_v91
    val_main_v90 val_main_v89 val_main_cst_13 val_main_cst_14 val_main_cst_15
  generalize val_main_v88 (F := Ideal) x0 x1 x2 x3 x4 x5 x6 x7 x8 x9 x10 x11 x12 x13 x14 x15 x16 = y
  exact GcnOps.softmax_host (n := 64) (k := 10) y reducesTo_S64x10_S64_d1 (by decide) h_S_ bcast_S_S64 bcast_S64_S64x1_0
    bcast_S64x1_S64x10_0_1

/-- The reference's classifier is the network's classifier of the pooled features. -/
theorem ref_mlp (x0 : (⟨S3200000, .i32⟩ : BufTy).Contents (Elt Ideal)) (x1 : (⟨S3200000, .i32⟩ : BufTy).Contents (Elt Ideal)) (x2 : (⟨S100000, .i32⟩ : BufTy).Contents (Elt Ideal)) (x3 : (⟨S1x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x512, .f32⟩ : BufTy).Contents (Elt Ideal)) (x8 : (⟨S512, .f32⟩ : BufTy).Contents (Elt Ideal)) (x9 : (⟨S512x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x512, .f32⟩ : BufTy).Contents (Elt Ideal)) (x14 : (⟨S512, .f32⟩ : BufTy).Contents (Elt Ideal)) (x15 : (⟨S512x10, .f32⟩ : BufTy).Contents (Elt Ideal)) (x16 : (⟨S10, .f32⟩ : BufTy).Contents (Elt Ideal)) :
    Read.val_main_v99 (F := Ideal) x0 x1 x2 x3 x4 x5 x6 x7 x8 x9 x10 x11 x12 x13 x14 x15 x16
      = GraphNet.mlp (Read.val_main_v64 (F := Ideal) x0 x1 x2 x3 x4 x5 x6) x7 (RowCol.rowOf x8) x9 (RowCol.rowOf x10) x11
          (RowCol.rowOf x12) x13 (RowCol.rowOf x14) x15 (RowCol.rowOf x16) := by
  rw [v99_eq, v88_eq, v84_eq, v79_eq, v74_eq, v69_eq]
  rfl

end Cert.ReferenceIdeal.RefClassifier

end
-- ==== Proof.Bridge.lean ====
/-
  The kernel's result array is the reference's last stage.

  Walk @main from the launch.  After the first stretch of host operations the first launch finds the reference's
  aggregated messages, the in-degree norm as one column, the first weights and the first bias as one row; it
  computes the first graph-convolution layer of them band by band, which is the reference's first-layer stage.
  The second stretch applies the reference's operations to that stage, the second launch computes the second layer,
  the third stretch takes the reference's mean readout, and the classifier's launch computes five dense layers and
  the softmax of what it finds — at every boundary the buffers hold the reference's stages of the same place, so
  the result array ends at the reference's last stage, one function of the seventeen arguments.
-/
import proofs.«170102_j71322226918055_2_alg».proof.Proof.Gen.KernelIdeal.Frame
import proofs.«170102_j71322226918055_2_alg».proof.Proof.Gen.ReferenceIdeal.Read
import proofs.«170102_j71322226918055_2_alg».proof.Proof.LibRowCol
import proofs.«170102_j71322226918055_2_alg».proof.Proof.GraphNet
import proofs.«170102_j71322226918055_2_alg».proof.Proof.ArgsKept
import proofs.«170102_j71322226918055_2_alg».proof.Proof.FirstStretch
import proofs.«170102_j71322226918055_2_alg».proof.Proof.SecondStretch
import proofs.«170102_j71322226918055_2_alg».proof.Proof.ThirdStretch
import proofs.«170102_j71322226918055_2_alg».proof.Proof.Conv1
import proofs.«170102_j71322226918055_2_alg».proof.Proof.Conv2
import proofs.«170102_j71322226918055_2_alg».proof.Proof.Classifier
import proofs.«170102_j71322226918055_2_alg».proof.Proof.RefConv
import proofs.«170102_j71322226918055_2_alg».proof.Proof.RefClassifier
import Idealize.ShloMosaic.Lib.StableHlo.Run

set_option maxRecDepth 16384

noncomputable section

namespace Cert.KernelIdeal.Reads

open Cert.KernelIdeal Cert.KernelIdeal.Gen
open Idealize.ShloMosaic Idealize.ShloMosaic.TcCoe Idealize.SL.Sem Idealize.ShloMosaic.StableHlo
open Cert.ReferenceIdeal.Read (val_main_v25 val_main_v12 val_main_v9 val_main_v32 val_main_v45 val_main_v52 val_main_v64 val_main_v99)

variable (m : (ℓ : Loc nD τ sig) → Buf (Elt Ideal) ℓ) (ρ : Dev nD → PrngReg) (c : Dev nD)

/-- After the first launch its result array holds the reference's first-layer stage: the launch computes the first
    graph-convolution layer of what it finds, and what it finds are the reference's stages. -/
theorem W2_v28 : (W2 m ρ c (Proc.devRef .tc main_v28) : S100000x64.Idx → EReal)
    = val_main_v32 (F := Ideal) (arg m c main_arg0) (arg m c main_arg1) (arg m c main_arg3) (arg m c main_arg4) := by
  refine (W2_arr m ρ c 4).trans ?_
  rw [Cert.KernelIdeal.ConvValue.conv1_final (V1 m ρ) c]
  show GraphNet.conv1 (n := 100000) (k := 1) (q := 64) (W1 m ρ c (Proc.devRef .tc main_v25)) (W1 m ρ c (Proc.devRef .tc main_v27))
      (W1 m ρ c (Proc.devRef .tc main_arg3)) (W1 m ρ c (Proc.devRef .tc main_v26)) = _
  rw [W1_v25, W1_v27, W1_arg3, W1_v26]
  exact (Cert.ReferenceIdeal.RefConv.ref_conv1 _ _ _ _).symm

/-- After the second launch its result array holds the reference's second-layer stage. -/
theorem W4_v44 : (W4 m ρ c (Proc.devRef .tc main_v44) : S100000x64.Idx → EReal)
    = val_main_v52 (F := Ideal) (arg m c main_arg0) (arg m c main_arg1) (arg m c main_arg3) (arg m c main_arg4) (arg m c main_arg5) (arg m c main_arg6) := by
  refine (W4_arr m ρ c 4).trans ?_
  rw [Cert.KernelIdeal.ConvValue.conv2_final (V3 m ρ) c]
  show GraphNet.conv2 (n := 100000) (k := 64) (q := 64) (W3 m ρ c (Proc.devRef .tc main_v41)) (W3 m ρ c (Proc.devRef .tc main_v43))
      (W3 m ρ c (Proc.devRef .tc main_arg5)) (W3 m ρ c (Proc.devRef .tc main_v42)) = _
  rw [W3_v41 m ρ c (W2_v28 m ρ c), W3_v43, W3_arg5, W3_v42]
  exact (Cert.ReferenceIdeal.RefConv.ref_conv2 _ _ _ _ _ _).symm

/-- After the classifier's launch the result array holds the reference's result, as a function of the arguments. -/
theorem result_eq : (W6 m ρ c (Proc.devRef .tc main_v62) : S64x10.Idx → EReal)
    = val_main_v99 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) := by
  refine (W6_arr m ρ c 11).trans ?_
  rw [Cert.KernelIdeal.ClassifierValue.classifier_final (V5 m ρ) c]
  show GraphNet.mlp (W5 m ρ c (Proc.devRef .tc main_v56)) (W5 m ρ c (Proc.devRef .tc main_arg7)) (W5 m ρ c (Proc.devRef .tc main_v57))
      (W5 m ρ c (Proc.devRef .tc main_arg9)) (W5 m ρ c (Proc.devRef .tc main_v58)) (W5 m ρ c (Proc.devRef .tc main_arg11))
      (W5 m ρ c (Proc.devRef .tc main_v59)) (W5 m ρ c (Proc.devRef .tc main_arg13)) (W5 m ρ c (Proc.devRef .tc main_v60))
      (W5 m ρ c (Proc.devRef .tc main_arg15)) (W5 m ρ c (Proc.devRef .tc main_v61)) = _
  rw [W5_v56 m ρ c (W4_v44 m ρ c), W5_arg7, W5_v57, W5_arg9, W5_v58, W5_arg11, W5_v59, W5_arg13, W5_v60, W5_arg15, W5_v61]
  exact (Cert.ReferenceIdeal.RefClassifier.ref_mlp _ _ _ _ _ _ _ _ _ _ _ _ _ _ _ _ _).symm

end Cert.KernelIdeal.Reads

end
-- ==== Proof.lean ====
/-
  Two programs for one network on a batch of graphs, and why they compute the same numbers.

  Both programs count in- and out-degrees, take the reciprocal square roots of the degrees clamped at one, and run
  two graph-convolution layers — scale by the out-degree norm, gather along the edges, add up at the edges'
  targets, scale by the in-degree norm, multiply by the weights, add the bias (the first layer then takes the
  maximum with zero) —, average the node features over each graph, and classify each graph by five dense layers and
  a softmax.  The kernel does the dense half of each graph-convolution layer band by band of ten thousand rows, and
  the whole classifier in one piece, with its matrix products read in a narrower float format; the reference does
  everything with whole-array operations.  On the extended reals a change of float format is the identity, a
  matrix product accumulated onto zero is the plain sum of products, a layer that treats every row by itself can
  be computed band by band, and the reference's extra maximum of a row maximum with minus infinity changes
  nothing: so after each launch the kernel's array holds the reference's stage of the same place, and the two
  results are one function of the arguments.  Nothing here needs the inputs to be finite.

  The three frames are the generated ones (the reference's is its run with the result dropped); the idealized
  kernel is the kernel's own text read on the extended reals, so nothing is owed for it.
-/
import proofs.«170102_j71322226918055_2_alg».proof.Defs
import proofs.«170102_j71322226918055_2_alg».proof.Proof.Gen.Kernel
import proofs.«170102_j71322226918055_2_alg».proof.Proof.Gen.Kernel.Skeleton
import proofs.«170102_j71322226918055_2_alg».proof.Proof.Gen.Kernel.Launch
import proofs.«170102_j71322226918055_2_alg».proof.Proof.Gen.Kernel.Points
import proofs.«170102_j71322226918055_2_alg».proof.Proof.Gen.Kernel.Frame
import proofs.«170102_j71322226918055_2_alg».proof.Proof.Gen.KernelIdeal
import proofs.«170102_j71322226918055_2_alg».proof.Proof.Gen.KernelIdeal.Skeleton
import proofs.«170102_j71322226918055_2_alg».proof.Proof.Gen.KernelIdeal.Launch
import proofs.«170102_j71322226918055_2_alg».proof.Proof.Gen.KernelIdeal.Points
import proofs.«170102_j71322226918055_2_alg».proof.Proof.Gen.KernelIdeal.Frame
import proofs.«170102_j71322226918055_2_alg».proof.Proof.Gen.ReferenceIdeal
import proofs.«170102_j71322226918055_2_alg».proof.Proof.Gen.Pre_finite_inputs
import proofs.«170102_j71322226918055_2_alg».proof.Proof.Gen.ReferenceIdeal.Run
import proofs.«170102_j71322226918055_2_alg».proof.Proof.Gen.ReferenceIdeal.Read
import proofs.«170102_j71322226918055_2_alg».proof.Proof.KernelRun
import proofs.«170102_j71322226918055_2_alg».proof.Proof.Bridge
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments alone: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's last stage of those
    arguments in their result arrays: the kernel because each of its launches leaves the reference's stage behind,
    the reference because that is its run. -/
theorem algebraic : Cert.algebraic_KernelIdeal_ReferenceIdeal := by
  intro m ρ m' ρ' _ hagree
  refine ⟨fun c => Cert.ReferenceIdeal.Read.val_main_v99 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Reads.result_eq m ρ c), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v99_eq, e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
